-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1000000x3 : Shape := ⟨2, ![1000000, 3]⟩
abbrev S500x128 : Shape := ⟨2, ![500, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S100500x10 : Shape := ⟨2, ![100500, 10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S100500x10 : S_.BroadcastsInDim S100500x10 (![] : Fin 0 → Fin S100500x10.rank)
  reducesTo_S100500x10_S_d0_1 : S100500x10.ReducesTo [0, 1] S_

variable [Facts]

def fn_part2 {F : FTy → Type} [FloatOps F] (main_arg8 : FVec F S10 .f32) (main_arg9 : FVec F S100500x10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S100500x10 .f32 := Host.absf main_arg9
  let main_cst_14 : FVec F S_ .f32 := constant S_ .f32 0x7F800000#32
  let main_v40 : FVec F S100500x10 .f32 := broadcastInDim S100500x10 ![] bcast_S_S100500x10 main_cst_14
  let main_v41 : IVec S100500x10 1 := cmpf .olt main_v39 main_v40
  let main_c_15 : IVec S_ 1 := constantI S_ 1 1#1
  let main_v42 : IVec S_ 1 := (fun x v => Host.reduce IntOp.andi x v reducesTo_S100500x10_S_d0_1 h_S_) main_v41 main_c_15
  let main_v43 : IVec S_ 1 := andi main_v38 main_v42
  main_v43

def fn_part1 {F : FTy → Type} [FloatOps F] (main_arg5 : FVec F S128x10 .f32) (main_arg6 : FVec F S10 .f32) (main_arg7 : FVec F S128x10 .f32) (main_arg8 : FVec F S10 .f32) (main_arg9 : FVec F S100500x10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x10 .f32 := Host.absf main_arg5
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S128x10 .f32 := Host.absf main_arg7
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg8 main_arg9 main_v33

def fn {F : FTy → Type} [FloatOps F] (main_arg0 : FVec F S100000x512 .f32) (main_arg1 : IVec S1000000x3 32) (main_arg2 : FVec F S500x128 .f32) (main_arg3 : FVec F S512x128 .f32) (main_arg4 : FVec F S128 .f32) (main_arg5 : FVec F S128x10 .f32) (main_arg6 : FVec F S10 .f32) (main_arg7 : FVec F S128x10 .f32) (main_arg8 : FVec F S10 .f32) (main_arg9 : FVec F S100500x10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x512 : Shape := ⟨2, ![100000, 512]⟩
abbrev S1000000x3 : Shape := ⟨2, ![1000000, 3]⟩
abbrev S500x128 : Shape := ⟨2, ![500, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S100500x10 : Shape := ⟨2, ![100500, 10]⟩
abbrev S1000000x1 : Shape := ⟨2, ![1000000, 1]⟩
abbrev S1000000 : Shape := ⟨1, ![1000000]⟩
abbrev S_ : Shape := ⟨0, ![]⟩
abbrev S100500 : Shape := ⟨1, ![100500]⟩
abbrev S2100500 : Shape := ⟨1, ![2100500]⟩
abbrev S2100500x1 : Shape := ⟨2, ![2100500, 1]⟩
abbrev S128x20 : Shape := ⟨2, ![128, 20]⟩
abbrev S100000x20 : Shape := ⟨2, ![100000, 20]⟩
abbrev S4000x512 : Shape := ⟨2, ![4000, 512]⟩
abbrev S4000x20 : Shape := ⟨2, ![4000, 20]⟩
abbrev S4000x128 : Shape := ⟨2, ![4000, 128]⟩
abbrev S1x128 : Shape := ⟨2, ![1, 128]⟩
abbrev S500x20 : Shape := ⟨2, ![500, 20]⟩
abbrev S100500x20 : Shape := ⟨2, ![100500, 20]⟩
abbrev S2100500x20 : Shape := ⟨2, ![2100500, 20]⟩
abbrev S20 : Shape := ⟨1, ![20]⟩
abbrev S1x20 : Shape := ⟨2, ![1, 20]⟩
abbrev S1000000x10 : Shape := ⟨2, ![1000000, 10]⟩

abbrev nBuf : Space → Nat
  | .hbm => 97
  | .vmem => 7
  | .smem => 0
  | _ => 0

abbrev bufTy : (tb : Table) → Fin (tcTables nBuf tb) → BufTy
  | .hbm, ⟨0, _⟩ => ⟨S100000x512, .f32⟩
  | .hbm, ⟨1, _⟩ => ⟨S1000000x3, .i32⟩
  | .hbm, ⟨2, _⟩ => ⟨S500x128, .f32⟩
  | .hbm, ⟨3, _⟩ => ⟨S512x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S128x10, .f32⟩
  | .hbm, ⟨8, _⟩ => ⟨S10, .f32⟩
  | .hbm, ⟨9, _⟩ => ⟨S100500x10, .f32⟩
  | .hbm, ⟨10, _⟩ => ⟨S1000000x1, .i32⟩
  | .hbm, ⟨11, _⟩ => ⟨S1000000, .i32⟩
  | .hbm, ⟨12, _⟩ => ⟨S1000000x1, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S100500, .i32⟩
  | .hbm, ⟨18, _⟩ => ⟨S2100500, .i32⟩
  | .hbm, ⟨19, _⟩ => ⟨S2100500, .i32⟩
  | .hbm, ⟨20, _⟩ => ⟨S_, .f32⟩
  | .hbm, ⟨21, _⟩ => ⟨S2100500, .f32⟩
  | .hbm, ⟨22, _⟩ => ⟨S_, .f32⟩
  | .hbm, ⟨23, _⟩ => ⟨S100500, .f32⟩
  | .hbm, ⟨24, _⟩ => ⟨S2100500x1, .i32⟩
  | .hbm, ⟨25, _⟩ => ⟨S100500, .f32⟩
  | .hbm, ⟨26, _⟩ => ⟨S100500, .f32⟩
  | .hbm, ⟨27, _⟩ => ⟨S_, .i32⟩
  | .hbm, ⟨28, _⟩ => ⟨S2100500, .i32⟩
  | .hbm, ⟨29, _⟩ => ⟨S2100500, .i1⟩
  | .hbm, ⟨30, _⟩ => ⟨S_, .i32⟩
  | .hbm, ⟨31, _⟩ => ⟨S2100500, .i32⟩
  | .hbm, ⟨32, _⟩ => ⟨S2100500, .i32⟩
  | .hbm, ⟨33, _⟩ => ⟨S2100500, .i32⟩
  | .hbm, ⟨34, _⟩ => ⟨S2100500x1, .i32⟩
  | .hbm, ⟨35, _⟩ => ⟨S2100500, .f32⟩
  | .hbm, ⟨36, _⟩ => ⟨S_, .i32⟩
  | .hbm, ⟨37, _⟩ => ⟨S2100500, .i32⟩
  | .hbm, ⟨38, _⟩ => ⟨S2100500, .i1⟩
  | .hbm, ⟨39, _⟩ => ⟨S_, .i32⟩
  | .hbm, ⟨40, _⟩ => ⟨S2100500, .i32⟩
  | .hbm, ⟨41, _⟩ => ⟨S2100500, .i32⟩
  | .hbm, ⟨42, _⟩ => ⟨S2100500, .i32⟩
  | .hbm, ⟨43, _⟩ => ⟨S2100500x1, .i32⟩
  | .hbm, ⟨44, _⟩ => ⟨S2100500, .f32⟩
  | .hbm, ⟨45, _⟩ => ⟨S2100500, .f32⟩
  | .hbm, ⟨46, _⟩ => ⟨S128x20, .f32⟩
  | .hbm, ⟨47, _⟩ => ⟨S100000x20, .f32⟩
  | .hbm, ⟨48, _⟩ => ⟨S500x20, .f32⟩
  | .hbm, ⟨49, _⟩ => ⟨S100500x20, .f32⟩
  | .hbm, ⟨50, _⟩ => ⟨S_, .i32⟩
  | .hbm, ⟨51, _⟩ => ⟨S2100500, .i32⟩
  | .hbm, ⟨52, _⟩ => ⟨S2100500, .i1⟩
  | .hbm, ⟨53, _⟩ => ⟨S_, .i32⟩
  | .hbm, ⟨54, _⟩ => ⟨S2100500, .i32⟩
  | .hbm, ⟨55, _⟩ => ⟨S2100500, .i32⟩
  | .hbm, ⟨56, _⟩ => ⟨S2100500, .i32⟩
  | .hbm, ⟨57, _⟩ => ⟨S2100500x1, .i32⟩
  | .hbm, ⟨58, _⟩ => ⟨S2100500x20, .f32⟩
  | .hbm, ⟨59, _⟩ => ⟨S2100500x1, .f32⟩
  | .hbm, ⟨60, _⟩ => ⟨S2100500x20, .f32⟩
  | .hbm, ⟨61, _⟩ => ⟨S2100500x20, .f32⟩
  | .hbm, ⟨62, _⟩ => ⟨S_, .f32⟩
  | .hbm, ⟨63, _⟩ => ⟨S100500x20, .f32⟩
  | .hbm, ⟨64, _⟩ => ⟨S2100500x1, .i32⟩
  | .hbm, ⟨65, _⟩ => ⟨S100500x20, .f32⟩
  | .hbm, ⟨66, _⟩ => ⟨S20, .f32⟩
  | .hbm, ⟨67, _⟩ => ⟨S1x20, .f32⟩
  | .hbm, ⟨68, _⟩ => ⟨S100500x20, .f32⟩
  | .hbm, ⟨69, _⟩ => ⟨S100500x20, .f32⟩
  | .hbm, ⟨70, _⟩ => ⟨S100500x10, .f32⟩
  | .hbm, ⟨71, _⟩ => ⟨S100500x10, .f32⟩
  | .hbm, ⟨72, _⟩ => ⟨S_, .f32⟩
  | .hbm, ⟨73, _⟩ => ⟨S100500x10, .f32⟩
  | .hbm, ⟨74, _⟩ => ⟨S100500x10, .f32⟩
  | .hbm, ⟨75, _⟩ => ⟨S100500x10, .f32⟩
  | .hbm, ⟨76, _⟩ => ⟨S100500x10, .f32⟩
  | .hbm, ⟨77, _⟩ => ⟨S100500x10, .f32⟩
  | .hbm, ⟨78, _⟩ => ⟨S_, .i32⟩
  | .hbm, ⟨79, _⟩ => ⟨S1000000, .i32⟩
  | .hbm, ⟨80, _⟩ => ⟨S1000000, .i1⟩
  | .hbm, ⟨81, _⟩ => ⟨S_, .i32⟩
  | .hbm, ⟨82, _⟩ => ⟨S1000000, .i32⟩
  | .hbm, ⟨83, _⟩ => ⟨S1000000, .i32⟩
  | .hbm, ⟨84, _⟩ => ⟨S1000000, .i32⟩
  | .hbm, ⟨85, _⟩ => ⟨S1000000x1, .i32⟩
  | .hbm, ⟨86, _⟩ => ⟨S1000000x10, .f32⟩
  | .hbm, ⟨87, _⟩ => ⟨S_, .i32⟩
  | .hbm, ⟨88, _⟩ => ⟨S1000000, .i32⟩
  | .hbm, ⟨89, _⟩ => ⟨S1000000, .i1⟩
  | .hbm, ⟨90, _⟩ => ⟨S_, .i32⟩
  | .hbm, ⟨91, _⟩ => ⟨S1000000, .i32⟩
  | .hbm, ⟨92, _⟩ => ⟨S1000000, .i32⟩
  | .hbm, ⟨93, _⟩ => ⟨S1000000, .i32⟩
  | .hbm, ⟨94, _⟩ => ⟨S1000000x1, .i32⟩
  | .hbm, ⟨95, _⟩ => ⟨S1000000x10, .f32⟩
  | .hbm, ⟨96, _⟩ => ⟨S1000000x10, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S128, .f32⟩
  | .local _ .vmem, ⟨4, _⟩ => ⟨S128x20, .f32⟩
  | .local _ .vmem, ⟨5, _⟩ => ⟨S4000x20, .f32⟩
  | .local _ .vmem, ⟨6, _⟩ => ⟨S4000x20, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_9 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  bcast_S_S1000000 : S_.BroadcastsInDim S1000000 (![] : Fin 0 → Fin S1000000.rank)
  concatenates_S1000000_S1000000_S100500_S2100500_d0 : Shape.Concatenates [S1000000, S1000000, S100500] S2100500 0
  bcast_S_S2100500 : S_.BroadcastsInDim S2100500 (![] : Fin 0 → Fin S2100500.rank)
  bcast_S_S100500 : S_.BroadcastsInDim S100500 (![] : Fin 0 → Fin S100500.rank)
  bcast_S2100500_S2100500x1_0 : S2100500.BroadcastsInDim S2100500x1 (![0] : Fin 1 → Fin S2100500x1.rank)
  concatenates_S128x10_S128x10_S128x20_d1 : Shape.Concatenates [S128x10, S128x10] S128x20 1
  inb_S4000x512_S4000x512_0_0 : ∀ a, (![0, 0] : Fin 2 → Nat) a + S4000x512.size a ≤ S4000x512.size a
  h_S4000x512 : 0 < S4000x512.numel
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x20_S128x20_0_0 : ∀ a, (![0, 0] : Fin 2 → Nat) a + S128x20.size a ≤ S128x20.size a
  h_S128x20 : 0 < S128x20.numel
  shapeCasts_S128x20_S128x20 : S128x20.ShapeCasts S128x20
  inb_S4000x20_S4000x20_0_0 : ∀ a, (![0, 0] : Fin 2 → Nat) a + S4000x20.size a ≤ S4000x20.size a
  h_S4000x20 : 0 < S4000x20.numel
  concatenates_S100000x20_S500x20_S100500x20_d0 : Shape.Concatenates [S100000x20, S500x20] S100500x20 0
  bcast_S2100500x1_S2100500x20_0_1 : S2100500x1.BroadcastsInDim S2100500x20 (![0, 1] : Fin 2 → Fin S2100500x20.rank)
  bcast_S_S100500x20 : S_.BroadcastsInDim S100500x20 (![] : Fin 0 → Fin S100500x20.rank)
  concatenates_S10_S10_S20_d0 : Shape.Concatenates [S10, S10] S20 0
  bcast_S20_S1x20_1 : S20.BroadcastsInDim S1x20 (![1] : Fin 1 → Fin S1x20.rank)
  bcast_S1x20_S100500x20_0_1 : S1x20.BroadcastsInDim S100500x20 (![0, 1] : Fin 2 → Fin S100500x20.rank)
  slices_S100500x20_S100500x10_0_0 : S100500x20.Slices ![0, 0] S100500x10
  slices_S100500x20_S100500x10_0_10 : S100500x20.Slices ![0, 10] S100500x10
  bcast_S_S100500x10 : S_.BroadcastsInDim S100500x10 (![] : Fin 0 → Fin S100500x10.rank)
  bcast_S1000000_S1000000x1_0 : S1000000.BroadcastsInDim S1000000x1 (![0] : Fin 1 → Fin S1000000x1.rank)
  scatter_S100500_S2100500x1_S2100500_n_0_0_1_wf : ScatterDims.WF S100500 S2100500x1 S2100500 [] [0] [0] 1
  gather_S100500_S2100500x1_S2100500_n_0_n_n_0_1_1_wf : GatherDims.WF S100500 S2100500x1 S2100500 [] [0] [] [0] [] 1 ![1]
  dot_S4000x512_S512x128_S4000x128_1_0_0_1_n_n_wf : DotDims.WF S4000x512 S512x128 S4000x128 [1] [0] [0] [1] [] []
  dot_S4000x128_S128x20_S4000x20_1_0_0_1_n_n_wf : DotDims.WF S4000x128 S128x20 S4000x20 [1] [0] [0] [1] [] []
  dot_S500x128_S128x20_S500x20_1_0_0_1_n_n_wf : DotDims.WF S500x128 S128x20 S500x20 [1] [0] [0] [1] [] []
  gather_S100500x20_S2100500x1_S2100500x20_1_0_n_n_0_1_120_wf : GatherDims.WF S100500x20 S2100500x1 S2100500x20 [1] [0] [] [0] [] 1 ![1, 20]
  scatter_S100500x20_S2100500x1_S2100500x20_1_0_0_1_wf : ScatterDims.WF S100500x20 S2100500x1 S2100500x20 [1] [0] [0] 1
  gather_S100500x10_S1000000x1_S1000000x10_1_0_n_n_0_1_110_wf : GatherDims.WF S100500x10 S1000000x1 S1000000x10 [1] [0] [] [0] [] 1 ![1, 10]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x20.size a ≤ S128x20.size a
  hwx0_3 : ∀ i : grid0.Coords, EltTy.bits .f32 = 32 ∨ (Rect.block (s := S128x20) S128x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x20.size a ≤ S100000x20.size a
  hwx0_4 : ∀ i : grid0.Coords, EltTy.bits .f32 = 32 ∨ (Rect.block (s := S100000x20) S4000x20.size (cc0_transform_4 i) (hinb0_4 i)).WholeWords (EltTy.packing .f32)

variable [Facts₀]

def scatter_S100500_S2100500x1_S2100500_n_0_0_1 : ScatterDims S100500 S2100500x1 S2100500 where
  updateWindowDims := []
  insertedWindowDims := [0]
  scatterDimsToOperandDims := [0]
  indexVectorDim := 1
  wf := scatter_S100500_S2100500x1_S2100500_n_0_0_1_wf
def gather_S100500_S2100500x1_S2100500_n_0_n_n_0_1_1 : GatherDims S100500 S2100500x1 S2100500 where
  offsetDims := []
  collapsedSliceDims := [0]
  operandBatchingDims := []
  startIndicesBatchingDims := []
  startIndexMap := [0]
  indexVectorDim := 1
  sliceSizes := ![1]
  wf := gather_S100500_S2100500x1_S2100500_n_0_n_n_0_1_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def dot_S4000x128_S128x20_S4000x20_1_0_0_1_n_n : DotDims S4000x128 S128x20 S4000x20 where
  lhsContracting := [1]
  rhsContracting := [0]
  lhsNonContracting := [0]
  rhsNonContracting := [1]
  lhsBatch := []
  rhsBatch := []
  wf := dot_S4000x128_S128x20_S4000x20_1_0_0_1_n_n_wf
def dot_S500x128_S128x20_S500x20_1_0_0_1_n_n : DotDims S500x128 S128x20 S500x20 where
  lhsContracting := [1]
  rhsContracting := [0]
  lhsNonContracting := [0]
  rhsNonContracting := [1]
  lhsBatch := []
  rhsBatch := []
  wf := dot_S500x128_S128x20_S500x20_1_0_0_1_n_n_wf
def gather_S100500x20_S2100500x1_S2100500x20_1_0_n_n_0_1_120 : GatherDims S100500x20 S2100500x1 S2100500x20 where
  offsetDims := [1]
  collapsedSliceDims := [0]
  operandBatchingDims := []
  startIndicesBatchingDims := []
  startIndexMap := [0]
  indexVectorDim := 1
  sliceSizes := ![1, 20]
  wf := gather_S100500x20_S2100500x1_S2100500x20_1_0_n_n_0_1_120_wf
def scatter_S100500x20_S2100500x1_S2100500x20_1_0_0_1 : ScatterDims S100500x20 S2100500x1 S2100500x20 where
  updateWindowDims := [1]
  insertedWindowDims := [0]
  scatterDimsToOperandDims := [0]
  indexVectorDim := 1
  wf := scatter_S100500x20_S2100500x1_S2100500x20_1_0_0_1_wf
def gather_S100500x10_S1000000x1_S1000000x10_1_0_n_n_0_1_110 : GatherDims S100500x10 S1000000x1 S1000000x10 where
  offsetDims := [1]
  collapsedSliceDims := [0]
  operandBatchingDims := []
  startIndicesBatchingDims := []
  startIndexMap := [0]
  indexVectorDim := 1
  sliceSizes := ![1, 10]
  wf := gather_S100500x10_S1000000x1_S1000000x10_1_0_n_n_0_1_110_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S4000x20.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x512 : Shape := ⟨2, ![100000, 512]⟩
abbrev S1000000x3 : Shape := ⟨2, ![1000000, 3]⟩
abbrev S500x128 : Shape := ⟨2, ![500, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S100500x10 : Shape := ⟨2, ![100500, 10]⟩
abbrev S1000000x1 : Shape := ⟨2, ![1000000, 1]⟩
abbrev S1000000 : Shape := ⟨1, ![1000000]⟩
abbrev S_ : Shape := ⟨0, ![]⟩
abbrev S100500 : Shape := ⟨1, ![100500]⟩
abbrev S2100500 : Shape := ⟨1, ![2100500]⟩
abbrev S2100500x1 : Shape := ⟨2, ![2100500, 1]⟩
abbrev S100000x128 : Shape := ⟨2, ![100000, 128]⟩
abbrev S1x128 : Shape := ⟨2, ![1, 128]⟩
abbrev S100500x128 : Shape := ⟨2, ![100500, 128]⟩
abbrev S2100500x10 : Shape := ⟨2, ![2100500, 10]⟩
abbrev S1x10 : Shape := ⟨2, ![1, 10]⟩
abbrev S1000000x10 : Shape := ⟨2, ![1000000, 10]⟩

abbrev nBuf : Space → Nat
  | .hbm => 119
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1000000x3, .i32⟩
  | .hbm, ⟨2, _⟩ => ⟨S500x128, .f32⟩
  | .hbm, ⟨3, _⟩ => ⟨S512x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S128x10, .f32⟩
  | .hbm, ⟨8, _⟩ => ⟨S10, .f32⟩
  | .hbm, ⟨9, _⟩ => ⟨S100500x10, .f32⟩
  | .hbm, ⟨10, _⟩ => ⟨S1000000x1, .i32⟩
  | .hbm, ⟨11, _⟩ => ⟨S1000000, .i32⟩
  | .hbm, ⟨12, _⟩ => ⟨S1000000x1, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S100500, .i32⟩
  | .hbm, ⟨18, _⟩ => ⟨S2100500, .i32⟩
  | .hbm, ⟨19, _⟩ => ⟨S2100500, .i32⟩
  | .hbm, ⟨20, _⟩ => ⟨S_, .f32⟩
  | .hbm, ⟨21, _⟩ => ⟨S2100500, .f32⟩
  | .hbm, ⟨22, _⟩ => ⟨S_, .f32⟩
  | .hbm, ⟨23, _⟩ => ⟨S100500, .f32⟩
  | .hbm, ⟨24, _⟩ => ⟨S2100500x1, .i32⟩
  | .hbm, ⟨25, _⟩ => ⟨S100500, .f32⟩
  | .hbm, ⟨26, _⟩ => ⟨S100500, .f32⟩
  | .hbm, ⟨27, _⟩ => ⟨S_, .i32⟩
  | .hbm, ⟨28, _⟩ => ⟨S2100500, .i32⟩
  | .hbm, ⟨29, _⟩ => ⟨S2100500, .i1⟩
  | .hbm, ⟨30, _⟩ => ⟨S_, .i32⟩
  | .hbm, ⟨31, _⟩ => ⟨S2100500, .i32⟩
  | .hbm, ⟨32, _⟩ => ⟨S2100500, .i32⟩
  | .hbm, ⟨33, _⟩ => ⟨S2100500, .i32⟩
  | .hbm, ⟨34, _⟩ => ⟨S2100500x1, .i32⟩
  | .hbm, ⟨35, _⟩ => ⟨S2100500, .f32⟩
  | .hbm, ⟨36, _⟩ => ⟨S_, .i32⟩
  | .hbm, ⟨37, _⟩ => ⟨S2100500, .i32⟩
  | .hbm, ⟨38, _⟩ => ⟨S2100500, .i1⟩
  | .hbm, ⟨39, _⟩ => ⟨S_, .i32⟩
  | .hbm, ⟨40, _⟩ => ⟨S2100500, .i32⟩
  | .hbm, ⟨41, _⟩ => ⟨S2100500, .i32⟩
  | .hbm, ⟨42, _⟩ => ⟨S2100500, .i32⟩
  | .hbm, ⟨43, _⟩ => ⟨S2100500x1, .i32⟩
  | .hbm, ⟨44, _⟩ => ⟨S2100500, .f32⟩
  | .hbm, ⟨45, _⟩ => ⟨S2100500, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100500x128, .f32⟩
  | .hbm, ⟨54, _⟩ => ⟨S100500x10, .f32⟩
  | .hbm, ⟨55, _⟩ => ⟨S_, .i32⟩
  | .hbm, ⟨56, _⟩ => ⟨S2100500, .i32⟩
  | .hbm, ⟨57, _⟩ => ⟨S2100500, .i1⟩
  | .hbm, ⟨58, _⟩ => ⟨S_, .i32⟩
  | .hbm, ⟨59, _⟩ => ⟨S2100500, .i32⟩
  | .hbm, ⟨60, _⟩ => ⟨S2100500, .i32⟩
  | .hbm, ⟨61, _⟩ => ⟨S2100500, .i32⟩
  | .hbm, ⟨62, _⟩ => ⟨S2100500x1, .i32⟩
  | .hbm, ⟨63, _⟩ => ⟨S2100500x10, .f32⟩
  | .hbm, ⟨64, _⟩ => ⟨S2100500x1, .f32⟩
  | .hbm, ⟨65, _⟩ => ⟨S2100500x10, .f32⟩
  | .hbm, ⟨66, _⟩ => ⟨S2100500x10, .f32⟩
  | .hbm, ⟨67, _⟩ => ⟨S_, .f32⟩
  | .hbm, ⟨68, _⟩ => ⟨S100500x10, .f32⟩
  | .hbm, ⟨69, _⟩ => ⟨S2100500x1, .i32⟩
  | .hbm, ⟨70, _⟩ => ⟨S100500x10, .f32⟩
  | .hbm, ⟨71, _⟩ => ⟨S1x10, .f32⟩
  | .hbm, ⟨72, _⟩ => ⟨S100500x10, .f32⟩
  | .hbm, ⟨73, _⟩ => ⟨S100500x10, .f32⟩
  | .hbm, ⟨74, _⟩ => ⟨S100500x10, .f32⟩
  | .hbm, ⟨75, _⟩ => ⟨S_, .i32⟩
  | .hbm, ⟨76, _⟩ => ⟨S2100500, .i32⟩
  | .hbm, ⟨77, _⟩ => ⟨S2100500, .i1⟩
  | .hbm, ⟨78, _⟩ => ⟨S_, .i32⟩
  | .hbm, ⟨79, _⟩ => ⟨S2100500, .i32⟩
  | .hbm, ⟨80, _⟩ => ⟨S2100500, .i32⟩
  | .hbm, ⟨81, _⟩ => ⟨S2100500, .i32⟩
  | .hbm, ⟨82, _⟩ => ⟨S2100500x1, .i32⟩
  | .hbm, ⟨83, _⟩ => ⟨S2100500x10, .f32⟩
  | .hbm, ⟨84, _⟩ => ⟨S2100500x1, .f32⟩
  | .hbm, ⟨85, _⟩ => ⟨S2100500x10, .f32⟩
  | .hbm, ⟨86, _⟩ => ⟨S2100500x10, .f32⟩
  | .hbm, ⟨87, _⟩ => ⟨S_, .f32⟩
  | .hbm, ⟨88, _⟩ => ⟨S100500x10, .f32⟩
  | .hbm, ⟨89, _⟩ => ⟨S2100500x1, .i32⟩
  | .hbm, ⟨90, _⟩ => ⟨S100500x10, .f32⟩
  | .hbm, ⟨91, _⟩ => ⟨S1x10, .f32⟩
  | .hbm, ⟨92, _⟩ => ⟨S100500x10, .f32⟩
  | .hbm, ⟨93, _⟩ => ⟨S100500x10, .f32⟩
  | .hbm, ⟨94, _⟩ => ⟨S_, .f32⟩
  | .hbm, ⟨95, _⟩ => ⟨S100500x10, .f32⟩
  | .hbm, ⟨96, _⟩ => ⟨S100500x10, .f32⟩
  | .hbm, ⟨97, _⟩ => ⟨S100500x10, .f32⟩
  | .hbm, ⟨98, _⟩ => ⟨S100500x10, .f32⟩
  | .hbm, ⟨99, _⟩ => ⟨S100500x10, .f32⟩
  | .hbm, ⟨100, _⟩ => ⟨S_, .i32⟩
  | .hbm, ⟨101, _⟩ => ⟨S1000000, .i32⟩
  | .hbm, ⟨102, _⟩ => ⟨S1000000, .i1⟩
  | .hbm, ⟨103, _⟩ => ⟨S_, .i32⟩
  | .hbm, ⟨104, _⟩ => ⟨S1000000, .i32⟩
  | .hbm, ⟨105, _⟩ => ⟨S1000000, .i32⟩
  | .hbm, ⟨106, _⟩ => ⟨S1000000, .i32⟩
  | .hbm, ⟨107, _⟩ => ⟨S1000000x1, .i32⟩
  | .hbm, ⟨108, _⟩ => ⟨S1000000x10, .f32⟩
  | .hbm, ⟨109, _⟩ => ⟨S_, .i32⟩
  | .hbm, ⟨110, _⟩ => ⟨S1000000, .i32⟩
  | .hbm, ⟨111, _⟩ => ⟨S1000000, .i1⟩
  | .hbm, ⟨112, _⟩ => ⟨S_, .i32⟩
  | .hbm, ⟨113, _⟩ => ⟨S1000000, .i32⟩
  | .hbm, ⟨114, _⟩ => ⟨S1000000, .i32⟩
  | .hbm, ⟨115, _⟩ => ⟨S1000000, .i32⟩
  | .hbm, ⟨116, _⟩ => ⟨S1000000x1, .i32⟩
  | .hbm, ⟨117, _⟩ => ⟨S1000000x10, .f32⟩
  | .hbm, ⟨118, _⟩ => ⟨S1000000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_14 : Ref sig .tc := ⟨.hbm, 109, rfl⟩
abbrev main_v81 : Ref sig .tc := ⟨.hbm, 110, rfl⟩
abbrev main_v82 : Ref sig .tc := ⟨.hbm, 111, rfl⟩
abbrev main_c_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]

class Facts₀ : Prop where
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  bcast_S_S1000000 : S_.BroadcastsInDim S1000000 (![] : Fin 0 → Fin S1000000.rank)
  concatenates_S1000000_S1000000_S100500_S2100500_d0 : Shape.Concatenates [S1000000, S1000000, S100500] S2100500 0
  bcast_S_S2100500 : S_.BroadcastsInDim S2100500 (![] : Fin 0 → Fin S2100500.rank)
  bcast_S_S100500 : S_.BroadcastsInDim S100500 (![] : Fin 0 → Fin S100500.rank)
  bcast_S2100500_S2100500x1_0 : S2100500.BroadcastsInDim S2100500x1 (![0] : Fin 1 → Fin S2100500x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S500x128_S100500x128_d0 : Shape.Concatenates [S100000x128, S500x128] S100500x128 0
  bcast_S2100500x1_S2100500x10_0_1 : S2100500x1.BroadcastsInDim S2100500x10 (![0, 1] : Fin 2 → Fin S2100500x10.rank)
  bcast_S_S100500x10 : S_.BroadcastsInDim S100500x10 (![] : Fin 0 → Fin S100500x10.rank)
  bcast_S10_S1x10_1 : S10.BroadcastsInDim S1x10 (![1] : Fin 1 → Fin S1x10.rank)
  bcast_S1x10_S100500x10_0_1 : S1x10.BroadcastsInDim S100500x10 (![0, 1] : Fin 2 → Fin S100500x10.rank)
  bcast_S1000000_S1000000x1_0 : S1000000.BroadcastsInDim S1000000x1 (![0] : Fin 1 → Fin S1000000x1.rank)
  scatter_S100500_S2100500x1_S2100500_n_0_0_1_wf : ScatterDims.WF S100500 S2100500x1 S2100500 [] [0] [0] 1
  gather_S100500_S2100500x1_S2100500_n_0_n_n_0_1_1_wf : GatherDims.WF S100500 S2100500x1 S2100500 [] [0] [] [0] [] 1 ![1]
  dot_S100000x512_S512x128_S100000x128_1_0_0_1_n_n_wf : DotDims.WF S100000x512 S512x128 S100000x128 [1] [0] [0] [1] [] []
  dot_S100500x128_S128x10_S100500x10_1_0_0_1_n_n_wf : DotDims.WF S100500x128 S128x10 S100500x10 [1] [0] [0] [1] [] []
  gather_S100500x10_S2100500x1_S2100500x10_1_0_n_n_0_1_110_wf : GatherDims.WF S100500x10 S2100500x1 S2100500x10 [1] [0] [] [0] [] 1 ![1, 10]
  scatter_S100500x10_S2100500x1_S2100500x10_1_0_0_1_wf : ScatterDims.WF S100500x10 S2100500x1 S2100500x10 [1] [0] [0] 1
  gather_S100500x10_S1000000x1_S1000000x10_1_0_n_n_0_1_110_wf : GatherDims.WF S100500x10 S1000000x1 S1000000x10 [1] [0] [] [0] [] 1 ![1, 10]

variable [Facts₀]

def scatter_S100500_S2100500x1_S2100500_n_0_0_1 : ScatterDims S100500 S2100500x1 S2100500 where
  updateWindowDims := []
  insertedWindowDims := [0]
  scatterDimsToOperandDims := [0]
  indexVectorDim := 1
  wf := scatter_S100500_S2100500x1_S2100500_n_0_0_1_wf
def gather_S100500_S2100500x1_S2100500_n_0_n_n_0_1_1 : GatherDims S100500 S2100500x1 S2100500 where
  offsetDims := []
  collapsedSliceDims := [0]
  operandBatchingDims := []
  startIndicesBatchingDims := []
  startIndexMap := [0]
  indexVectorDim := 1
  sliceSizes := ![1]
  wf := gather_S100500_S2100500x1_S2100500_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100500x128_S128x10_S100500x10_1_0_0_1_n_n : DotDims S100500x128 S128x10 S100500x10 where
  lhsContracting := [1]
  rhsContracting := [0]
  lhsNonContracting := [0]
  rhsNonContracting := [1]
  lhsBatch := []
  rhsBatch := []
  wf := dot_S100500x128_S128x10_S100500x10_1_0_0_1_n_n_wf
def gather_S100500x10_S2100500x1_S2100500x10_1_0_n_n_0_1_110 : GatherDims S100500x10 S2100500x1 S2100500x10 where
  offsetDims := [1]
  collapsedSliceDims := [0]
  operandBatchingDims := []
  startIndicesBatchingDims := []
  startIndexMap := [0]
  indexVectorDim := 1
  sliceSizes := ![1, 10]
  wf := gather_S100500x10_S2100500x1_S2100500x10_1_0_n_n_0_1_110_wf
def scatter_S100500x10_S2100500x1_S2100500x10_1_0_0_1 : ScatterDims S100500x10 S2100500x1 S2100500x10 where
  updateWindowDims := [1]
  insertedWindowDims := [0]
  scatterDimsToOperandDims := [0]
  indexVectorDim := 1
  wf := scatter_S100500x10_S2100500x1_S2100500x10_1_0_0_1_wf
def gather_S100500x10_S1000000x1_S1000000x10_1_0_n_n_0_1_110 : GatherDims S100500x10 S1000000x1 S1000000x10 where
  offsetDims := [1]
  collapsedSliceDims := [0]
  operandBatchingDims := []
  startIndicesBatchingDims := []
  startIndexMap := [0]
  indexVectorDim := 1
  sliceSizes := ![1, 10]
  wf := gather_S100500x10_S1000000x1_S1000000x10_1_0_n_n_0_1_110_wf

class Facts : Prop extends Facts₀ where

variable [Facts]
-- ==== Proof.KernelFrame.lean ====
import proofs.«172445_j86895778333433_2_alg».proof.Proof.Gen.Kernel.Launch
import proofs.«172445_j86895778333433_2_alg».proof.Proof.Gen.Kernel.Skeleton
import proofs.«172445_j86895778333433_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The frame of @main: host lines, one pipelined region, host lines

@main computes 37 host values, runs one region over a grid of 25 points, and computes 49 more host
values. The region stages four inputs (a row block of `main_arg0` at each point; `main_arg3`,
`main_arg4` and the host value `main_v29` whole, once) and writes one row block of `main_v30` back
at each point. The body reads the four staged inputs and overwrites the whole output block with one
payload, a function of the four inputs alone.

From this we derive: every execution terminates, each array of the region ends at what the
per-point data determine, every other buffer ends at what the later host lines make of it, and in
particular the ten argument arrays end as they were launched (no line writes an argument, and the
region only reads the three it stages).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's entry -/

/-- The buffer contents of core `c` when the region is entered: the launch contents taken through the
    37 host lines before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem flat0 : List.flatten [(hostOps0 : List (HloOp τ sig (Elt F)))] = hostOps0 := by
  simp only [List.flatten_cons, List.flatten_nil, List.append_nil]
theorem flat1 : List.flatten [(hostOps1 : List (HloOp τ sig (Elt F)))] = hostOps1 := by
  simp only [List.flatten_cons, List.flatten_nil, List.append_nil]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The results of the lines before the region, in order: the only buffers they write. -/
def wr0 : List (Ref sig .tc) := [main_v0, main_v1, main_v2, main_v3, main_c, main_v4, main_v5, main_v6, main_v7, main_v8, main_cst, main_v9, main_cst_0, main_v10, main_v11, main_v12, main_v13, main_c_1, main_v14, main_v15, main_c_2, main_v16, main_v17, main_v18, main_v19, main_v20, main_c_3, main_v21, main_v22, main_c_4, main_v23, main_v24, main_v25, main_v26, main_v27, main_v28, main_v29]
/-- The results of the lines after the region, in order. -/
def wr1 : List (Ref sig .tc) := [main_v31, main_v32, main_c_5, main_v33, main_v34, main_c_6, main_v35, main_v36, main_v37, main_v38, main_v39, main_v40, main_v41, main_v42, main_cst_7, main_v43, main_v44, main_v45, main_v46, main_v47, main_v48, main_v49, main_v50, main_v51, main_cst_8, main_v52, main_v53, main_v54, main_v55, main_v56, main_c_9, main_v57, main_v58, main_c_10, main_v59, main_v60, main_v61, main_v62, main_v63, main_c_11, main_v64, main_v65, main_c_12, main_v66, main_v67, main_v68, main_v69, main_v70, main_v71]

/-- Each line before the region writes its own result and nothing else. -/
theorem hostOps0_wr : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.singleton_subset_iff, List.mem_toFinset]
  repeat' apply And.intro
  all_goals exact List.mem_map.mpr ⟨_, by decide, rfl⟩
/-- Each line after the region writes its own result and nothing else. -/
theorem hostOps1_wr : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.nary_writes, StableHlo.binaryIndexed_writes, Finset.singleton_subset_iff, List.mem_toFinset]
  repeat' apply And.intro
  all_goals exact List.mem_map.mpr ⟨_, by decide, rfl⟩

/-- @main is the earlier lines, the region, the later lines: it reduces to the region continued by the later
    lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped buffers of the core only: each is an array of the region or bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the region: no array is among their results. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  simp only [List.mem_cons, List.mem_nil_iff, or_false] at hops
  rcases hops with rfl
  obtain ⟨y, hy, he⟩ := List.mem_map.mp (List.mem_toFinset.mp ((List.forall_iff_forall_mem.mp hostOps1_wr) op hop hw))
  exact (by decide : ∀ w, Pipeline.arrRef spec0 w ∉ wr1) w (Proc.devRef_injective _ he ▸ hy)

/-! ## The arguments at the region's entry: no earlier line writes one -/

theorem V_main_arg0 (c : Dev nD) : V m c main_arg0 = m ((c : Thread nD τ).loc main_arg0) := by
  show StableHlo.after (List.flatten [hostOps0]) (fun b => m (c, b)) (Proc.devRef .tc main_arg0) = _
  rw [flat0]
  exact StableHlo.after_of_writes_sub (r := main_arg0) _ _ hostOps0_wr (by decide)
theorem V_main_arg1 (c : Dev nD) : V m c main_arg1 = m ((c : Thread nD τ).loc main_arg1) := by
  show StableHlo.after (List.flatten [hostOps0]) (fun b => m (c, b)) (Proc.devRef .tc main_arg1) = _
  rw [flat0]
  exact StableHlo.after_of_writes_sub (r := main_arg1) _ _ hostOps0_wr (by decide)
theorem V_main_arg2 (c : Dev nD) : V m c main_arg2 = m ((c : Thread nD τ).loc main_arg2) := by
  show StableHlo.after (List.flatten [hostOps0]) (fun b => m (c, b)) (Proc.devRef .tc main_arg2) = _
  rw [flat0]
  exact StableHlo.after_of_writes_sub (r := main_arg2) _ _ hostOps0_wr (by decide)
theorem V_main_arg3 (c : Dev nD) : V m c main_arg3 = m ((c : Thread nD τ).loc main_arg3) := by
  show StableHlo.after (List.flatten [hostOps0]) (fun b => m (c, b)) (Proc.devRef .tc main_arg3) = _
  rw [flat0]
  exact StableHlo.after_of_writes_sub (r := main_arg3) _ _ hostOps0_wr (by decide)
theorem V_main_arg4 (c : Dev nD) : V m c main_arg4 = m ((c : Thread nD τ).loc main_arg4) := by
  show StableHlo.after (List.flatten [hostOps0]) (fun b => m (c, b)) (Proc.devRef .tc main_arg4) = _
  rw [flat0]
  exact StableHlo.after_of_writes_sub (r := main_arg4) _ _ hostOps0_wr (by decide)
theorem V_main_arg5 (c : Dev nD) : V m c main_arg5 = m ((c : Thread nD τ).loc main_arg5) := by
  show StableHlo.after (List.flatten [hostOps0]) (fun b => m (c, b)) (Proc.devRef .tc main_arg5) = _
  rw [flat0]
  exact StableHlo.after_of_writes_sub (r := main_arg5) _ _ hostOps0_wr (by decide)
theorem V_main_arg6 (c : Dev nD) : V m c main_arg6 = m ((c : Thread nD τ).loc main_arg6) := by
  show StableHlo.after (List.flatten [hostOps0]) (fun b => m (c, b)) (Proc.devRef .tc main_arg6) = _
  rw [flat0]
  exact StableHlo.after_of_writes_sub (r := main_arg6) _ _ hostOps0_wr (by decide)
theorem V_main_arg7 (c : Dev nD) : V m c main_arg7 = m ((c : Thread nD τ).loc main_arg7) := by
  show StableHlo.after (List.flatten [hostOps0]) (fun b => m (c, b)) (Proc.devRef .tc main_arg7) = _
  rw [flat0]
  exact StableHlo.after_of_writes_sub (r := main_arg7) _ _ hostOps0_wr (by decide)
theorem V_main_arg8 (c : Dev nD) : V m c main_arg8 = m ((c : Thread nD τ).loc main_arg8) := by
  show StableHlo.after (List.flatten [hostOps0]) (fun b => m (c, b)) (Proc.devRef .tc main_arg8) = _
  rw [flat0]
  exact StableHlo.after_of_writes_sub (r := main_arg8) _ _ hostOps0_wr (by decide)
theorem V_main_arg9 (c : Dev nD) : V m c main_arg9 = m ((c : Thread nD τ).loc main_arg9) := by
  show StableHlo.after (List.flatten [hostOps0]) (fun b => m (c, b)) (Proc.devRef .tc main_arg9) = _
  rw [flat0]
  exact StableHlo.after_of_writes_sub (r := main_arg9) _ _ hostOps0_wr (by decide)

/-! ## The arguments after the later lines: none writes one; a staged input is returned by the region as found -/

theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg0 = m ((c : Thread nD τ).loc main_arg0) := by
  unfold Pipeline.afterTail₀
  rw [flat1, StableHlo.after_of_writes_sub (r := main_arg0) _ _ hostOps1_wr (by decide)]
  refine (Pipeline.withArrays_arr (cfgs 0).spec launch0.win.arr_inj c (V0 m c) _ (0 : Fin 5)).trans ?_
  exact ((dats 0 c).arrAt_in 0 rfl _).trans ((hA c 0).trans (V_main_arg0 m c))
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [flat1, StableHlo.after_of_writes_sub (r := main_arg1) _ _ hostOps1_wr (by decide),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [flat1, StableHlo.after_of_writes_sub (r := main_arg2) _ _ hostOps1_wr (by decide),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg3 = m ((c : Thread nD τ).loc main_arg3) := by
  unfold Pipeline.afterTail₀
  rw [flat1, StableHlo.after_of_writes_sub (r := main_arg3) _ _ hostOps1_wr (by decide)]
  refine (Pipeline.withArrays_arr (cfgs 0).spec launch0.win.arr_inj c (V0 m c) _ (1 : Fin 5)).trans ?_
  exact ((dats 0 c).arrAt_in 1 rfl _).trans ((hA c 1).trans (V_main_arg3 m c))
theorem W_main_arg4 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg4 = m ((c : Thread nD τ).loc main_arg4) := by
  unfold Pipeline.afterTail₀
  rw [flat1, StableHlo.after_of_writes_sub (r := main_arg4) _ _ hostOps1_wr (by decide)]
  refine (Pipeline.withArrays_arr (cfgs 0).spec launch0.win.arr_inj c (V0 m c) _ (2 : Fin 5)).trans ?_
  exact ((dats 0 c).arrAt_in 2 rfl _).trans ((hA c 2).trans (V_main_arg4 m c))
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [flat1, StableHlo.after_of_writes_sub (r := main_arg5) _ _ hostOps1_wr (by decide),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [flat1, StableHlo.after_of_writes_sub (r := main_arg6) _ _ hostOps1_wr (by decide),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [flat1, StableHlo.after_of_writes_sub (r := main_arg7) _ _ hostOps1_wr (by decide),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [flat1, StableHlo.after_of_writes_sub (r := main_arg8) _ _ hostOps1_wr (by decide),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [flat1, StableHlo.after_of_writes_sub (r := main_arg9) _ _ hostOps1_wr (by decide),
    Pipeline.withArrays_of_ne _ c (V0 m c) _ main_arg9 (by exact (by decide : ∀ w, Pipeline.arrRef spec0 w ≠ main_arg9))]
  exact V_main_arg9 m c

/-! ## The blocks of the windows -/

/-- The block of window `w` at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's staging buffer holds its block at every point, fetched there or not: where it is not
    fetched its block index has not moved, and the body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the region's post -/

/-- For data whose arrays are the entry contents, a run ending with each array at what the data determine and
    each bypassing buffer at what the later lines leave ends with the ten arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's accesses -/

abbrev rIn0 : Rect S4000x512 := Rect.unit (s := S4000x512) ![0, 0] S4000x512.size inb_S4000x512_S4000x512_0_0
abbrev rIn1 : Rect S512x128 := Rect.unit (s := S512x128) ![0, 0] S512x128.size inb_S512x128_S512x128_0_0
abbrev rIn2 : Rect S128 := Rect.unit (s := S128) ![0] S128.size inb_S128_S128_0
abbrev rIn3 : Rect S128x20 := Rect.unit (s := S128x20) ![0, 0] S128x20.size inb_S128x20_S128x20_0_0
abbrev rOut : Rect S4000x20 := Rect.unit (s := S4000x20) ![0, 0] S4000x20.size inb_S4000x20_S4000x20_0_0

/-- What the body leaves in the output block, from the four input blocks: its one store, over the whole block. -/
def out4 (x0 : Vec F S4000x512 .f32) (x1 : Vec F S512x128 .f32) (x2 : Vec F S128 .f32) (x3 : Vec F S128x20 .f32) : Vec F S4000x20 .f32 :=
  View.canon [⟨rOut, k0_pay1 (View.ld x0 rIn0) (View.ld x1 rIn1) (View.ld x2 rIn2) (View.ld x3 rIn3)⟩]

/-- The one store is the whole block, so it covers it. -/
theorem cover4 (p0 : Vec F S4000x20 .f32) (y : S4000x20.Idx) :
    ∃ pc ∈ ([⟨rOut, p0⟩] : List (View.Piece (Elt F) S4000x20 .f32)), y ∈ pc.1.set :=
  View.cover_of_tiled [⟨rOut, p0⟩] S4000x20.size (by rfl) y

/-! ## The body's triple -/

set_option maxHeartbeats 1000000 in
/-- On whole staging buffers, the inputs' reading `x0 … x3` and the output's holding anything, the body runs to
    its continuation with the inputs as they were and the output at `out4` of them. -/
theorem sound_kernel (c : Dev nD) (E : Set ℕ) (i : grid0.Coords)
    (a1 : Memref sig .tc .vmem S4000x512 .f32) (h1 : a1.IsWhole) (a2 : Memref sig .tc .vmem S512x128 .f32) (h2 : a2.IsWhole)
    (a3 : Memref sig .tc .vmem S128 .f32) (h3 : a3.IsWhole) (a4 : Memref sig .tc .vmem S128x20 .f32) (h4 : a4.IsWhole)
    (a5 : Memref sig .tc .vmem S4000x20 .f32) (h5 : a5.IsWhole)
    (x0 : Vec F S4000x512 .f32) (x1 : Vec F S512x128 .f32) (x2 : Vec F S128 .f32) (x3 : Vec F S128x20 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out4 x0 x1 x2 x3)) -∗ K ⟨⟩))
      ⊢ wp frame (wpE (defs₀ (F := F)) Variants.none c none) E (cc0__efc_proj_kernel i a1 h1 a2 h2 a3 h3 a4 h4 a5 h5) K := by
  simp only [cc0__efc_proj_kernel_eq_skeleton]; unfold cc0__efc_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The data of the region -/

/-- On core `c`: the arrays as the region finds them; after the body at point `t` each input buffer at its block
    and the output buffer at `out4` of the four input blocks; the invariant the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies; the invariant and what is
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the region
    ending at what the data determine and every other unscoped buffer at what the later lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The ten argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- info: 'Cert.Kernel.Hand.frame' depends on axioms: [propext, Classical.choice, Quot.sound] -/
#guard_msgs in #print axioms frame

end Cert.Kernel.Hand

end
-- ==== Proof.KernelIdealFrame.lean ====
import proofs.«172445_j86895778333433_2_alg».proof.Proof.Gen.KernelIdeal.Launch
import proofs.«172445_j86895778333433_2_alg».proof.Proof.Gen.KernelIdeal.Skeleton
import proofs.«172445_j86895778333433_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The frame of @main: host lines, one pipelined region, host lines

@main computes 37 host values, runs one region over a grid of 25 points, and computes 49 more host
values. The region stages four inputs (a row block of `main_arg0` at each point; `main_arg3`,
`main_arg4` and the host value `main_v29` whole, once) and writes one row block of `main_v30` back
at each point. The body reads the four staged inputs and overwrites the whole output block with one
payload, a function of the four inputs alone.

From this we derive: every execution terminates, each array of the region ends at what the
per-point data determine, every other buffer ends at what the later host lines make of it, and in
particular the ten argument arrays end as they were launched (no line writes an argument, and the
region only reads the three it stages).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's entry -/

/-- The buffer contents of core `c` when the region is entered: the launch contents taken through the
    37 host lines before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem flat0 : List.flatten [(hostOps0 : List (HloOp τ sig (Elt F)))] = hostOps0 := by
  simp only [List.flatten_cons, List.flatten_nil, List.append_nil]
theorem flat1 : List.flatten [(hostOps1 : List (HloOp τ sig (Elt F)))] = hostOps1 := by
  simp only [List.flatten_cons, List.flatten_nil, List.append_nil]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The results of the lines before the region, in order: the only buffers they write. -/
def wr0 : List (Ref sig .tc) := [main_v0, main_v1, main_v2, main_v3, main_c, main_v4, main_v5, main_v6, main_v7, main_v8, main_cst, main_v9, main_cst_0, main_v10, main_v11, main_v12, main_v13, main_c_1, main_v14, main_v15, main_c_2, main_v16, main_v17, main_v18, main_v19, main_v20, main_c_3, main_v21, main_v22, main_c_4, main_v23, main_v24, main_v25, main_v26, main_v27, main_v28, main_v29]
/-- The results of the lines after the region, in order. -/
def wr1 : List (Ref sig .tc) := [main_v31, main_v32, main_c_5, main_v33, main_v34, main_c_6, main_v35, main_v36, main_v37, main_v38, main_v39, main_v40, main_v41, main_v42, main_cst_7, main_v43, main_v44, main_v45, main_v46, main_v47, main_v48, main_v49, main_v50, main_v51, main_cst_8, main_v52, main_v53, main_v54, main_v55, main_v56, main_c_9, main_v57, main_v58, main_c_10, main_v59, main_v60, main_v61, main_v62, main_v63, main_c_11, main_v64, main_v65, main_c_12, main_v66, main_v67, main_v68, main_v69, main_v70, main_v71]

/-- Each line before the region writes its own result and nothing else. -/
theorem hostOps0_wr : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.singleton_subset_iff, List.mem_toFinset]
  repeat' apply And.intro
  all_goals exact List.mem_map.mpr ⟨_, by decide, rfl⟩
/-- Each line after the region writes its own result and nothing else. -/
theorem hostOps1_wr : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.nary_writes, StableHlo.binaryIndexed_writes, Finset.singleton_subset_iff, List.mem_toFinset]
  repeat' apply And.intro
  all_goals exact List.mem_map.mpr ⟨_, by decide, rfl⟩

/-- @main is the earlier lines, the region, the later lines: it reduces to the region continued by the later
    lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped buffers of the core only: each is an array of the region or bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the region: no array is among their results. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  simp only [List.mem_cons, List.mem_nil_iff, or_false] at hops
  rcases hops with rfl
  obtain ⟨y, hy, he⟩ := List.mem_map.mp (List.mem_toFinset.mp ((List.forall_iff_forall_mem.mp hostOps1_wr) op hop hw))
  exact (by decide : ∀ w, Pipeline.arrRef spec0 w ∉ wr1) w (Proc.devRef_injective _ he ▸ hy)

/-! ## The arguments at the region's entry: no earlier line writes one -/

theorem V_main_arg0 (c : Dev nD) : V m c main_arg0 = m ((c : Thread nD τ).loc main_arg0) := by
  show StableHlo.after (List.flatten [hostOps0]) (fun b => m (c, b)) (Proc.devRef .tc main_arg0) = _
  rw [flat0]
  exact StableHlo.after_of_writes_sub (r := main_arg0) _ _ hostOps0_wr (by decide)
theorem V_main_arg1 (c : Dev nD) : V m c main_arg1 = m ((c : Thread nD τ).loc main_arg1) := by
  show StableHlo.after (List.flatten [hostOps0]) (fun b => m (c, b)) (Proc.devRef .tc main_arg1) = _
  rw [flat0]
  exact StableHlo.after_of_writes_sub (r := main_arg1) _ _ hostOps0_wr (by decide)
theorem V_main_arg2 (c : Dev nD) : V m c main_arg2 = m ((c : Thread nD τ).loc main_arg2) := by
  show StableHlo.after (List.flatten [hostOps0]) (fun b => m (c, b)) (Proc.devRef .tc main_arg2) = _
  rw [flat0]
  exact StableHlo.after_of_writes_sub (r := main_arg2) _ _ hostOps0_wr (by decide)
theorem V_main_arg3 (c : Dev nD) : V m c main_arg3 = m ((c : Thread nD τ).loc main_arg3) := by
  show StableHlo.after (List.flatten [hostOps0]) (fun b => m (c, b)) (Proc.devRef .tc main_arg3) = _
  rw [flat0]
  exact StableHlo.after_of_writes_sub (r := main_arg3) _ _ hostOps0_wr (by decide)
theorem V_main_arg4 (c : Dev nD) : V m c main_arg4 = m ((c : Thread nD τ).loc main_arg4) := by
  show StableHlo.after (List.flatten [hostOps0]) (fun b => m (c, b)) (Proc.devRef .tc main_arg4) = _
  rw [flat0]
  exact StableHlo.after_of_writes_sub (r := main_arg4) _ _ hostOps0_wr (by decide)
theorem V_main_arg5 (c : Dev nD) : V m c main_arg5 = m ((c : Thread nD τ).loc main_arg5) := by
  show StableHlo.after (List.flatten [hostOps0]) (fun b => m (c, b)) (Proc.devRef .tc main_arg5) = _
  rw [flat0]
  exact StableHlo.after_of_writes_sub (r := main_arg5) _ _ hostOps0_wr (by decide)
theorem V_main_arg6 (c : Dev nD) : V m c main_arg6 = m ((c : Thread nD τ).loc main_arg6) := by
  show StableHlo.after (List.flatten [hostOps0]) (fun b => m (c, b)) (Proc.devRef .tc main_arg6) = _
  rw [flat0]
  exact StableHlo.after_of_writes_sub (r := main_arg6) _ _ hostOps0_wr (by decide)
theorem V_main_arg7 (c : Dev nD) : V m c main_arg7 = m ((c : Thread nD τ).loc main_arg7) := by
  show StableHlo.after (List.flatten [hostOps0]) (fun b => m (c, b)) (Proc.devRef .tc main_arg7) = _
  rw [flat0]
  exact StableHlo.after_of_writes_sub (r := main_arg7) _ _ hostOps0_wr (by decide)
theorem V_main_arg8 (c : Dev nD) : V m c main_arg8 = m ((c : Thread nD τ).loc main_arg8) := by
  show StableHlo.after (List.flatten [hostOps0]) (fun b => m (c, b)) (Proc.devRef .tc main_arg8) = _
  rw [flat0]
  exact StableHlo.after_of_writes_sub (r := main_arg8) _ _ hostOps0_wr (by decide)
theorem V_main_arg9 (c : Dev nD) : V m c main_arg9 = m ((c : Thread nD τ).loc main_arg9) := by
  show StableHlo.after (List.flatten [hostOps0]) (fun b => m (c, b)) (Proc.devRef .tc main_arg9) = _
  rw [flat0]
  exact StableHlo.after_of_writes_sub (r := main_arg9) _ _ hostOps0_wr (by decide)

/-! ## The arguments after the later lines: none writes one; a staged input is returned by the region as found -/

theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg0 = m ((c : Thread nD τ).loc main_arg0) := by
  unfold Pipeline.afterTail₀
  rw [flat1, StableHlo.after_of_writes_sub (r := main_arg0) _ _ hostOps1_wr (by decide)]
  refine (Pipeline.withArrays_arr (cfgs 0).spec launch0.win.arr_inj c (V0 m c) _ (0 : Fin 5)).trans ?_
  exact ((dats 0 c).arrAt_in 0 rfl _).trans ((hA c 0).trans (V_main_arg0 m c))
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [flat1, StableHlo.after_of_writes_sub (r := main_arg1) _ _ hostOps1_wr (by decide),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [flat1, StableHlo.after_of_writes_sub (r := main_arg2) _ _ hostOps1_wr (by decide),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg3 = m ((c : Thread nD τ).loc main_arg3) := by
  unfold Pipeline.afterTail₀
  rw [flat1, StableHlo.after_of_writes_sub (r := main_arg3) _ _ hostOps1_wr (by decide)]
  refine (Pipeline.withArrays_arr (cfgs 0).spec launch0.win.arr_inj c (V0 m c) _ (1 : Fin 5)).trans ?_
  exact ((dats 0 c).arrAt_in 1 rfl _).trans ((hA c 1).trans (V_main_arg3 m c))
theorem W_main_arg4 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg4 = m ((c : Thread nD τ).loc main_arg4) := by
  unfold Pipeline.afterTail₀
  rw [flat1, StableHlo.after_of_writes_sub (r := main_arg4) _ _ hostOps1_wr (by decide)]
  refine (Pipeline.withArrays_arr (cfgs 0).spec launch0.win.arr_inj c (V0 m c) _ (2 : Fin 5)).trans ?_
  exact ((dats 0 c).arrAt_in 2 rfl _).trans ((hA c 2).trans (V_main_arg4 m c))
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [flat1, StableHlo.after_of_writes_sub (r := main_arg5) _ _ hostOps1_wr (by decide),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [flat1, StableHlo.after_of_writes_sub (r := main_arg6) _ _ hostOps1_wr (by decide),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [flat1, StableHlo.after_of_writes_sub (r := main_arg7) _ _ hostOps1_wr (by decide),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [flat1, StableHlo.after_of_writes_sub (r := main_arg8) _ _ hostOps1_wr (by decide),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [flat1, StableHlo.after_of_writes_sub (r := main_arg9) _ _ hostOps1_wr (by decide),
    Pipeline.withArrays_of_ne _ c (V0 m c) _ main_arg9 (by exact (by decide : ∀ w, Pipeline.arrRef spec0 w ≠ main_arg9))]
  exact V_main_arg9 m c

/-! ## The blocks of the windows -/

/-- The block of window `w` at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's staging buffer holds its block at every point, fetched there or not: where it is not
    fetched its block index has not moved, and the body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the region's post -/

/-- For data whose arrays are the entry contents, a run ending with each array at what the data determine and
    each bypassing buffer at what the later lines leave ends with the ten arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's accesses -/

abbrev rIn0 : Rect S4000x512 := Rect.unit (s := S4000x512) ![0, 0] S4000x512.size inb_S4000x512_S4000x512_0_0
abbrev rIn1 : Rect S512x128 := Rect.unit (s := S512x128) ![0, 0] S512x128.size inb_S512x128_S512x128_0_0
abbrev rIn2 : Rect S128 := Rect.unit (s := S128) ![0] S128.size inb_S128_S128_0
abbrev rIn3 : Rect S128x20 := Rect.unit (s := S128x20) ![0, 0] S128x20.size inb_S128x20_S128x20_0_0
abbrev rOut : Rect S4000x20 := Rect.unit (s := S4000x20) ![0, 0] S4000x20.size inb_S4000x20_S4000x20_0_0

/-- What the body leaves in the output block, from the four input blocks: its one store, over the whole block. -/
def out4 (x0 : Vec F S4000x512 .f32) (x1 : Vec F S512x128 .f32) (x2 : Vec F S128 .f32) (x3 : Vec F S128x20 .f32) : Vec F S4000x20 .f32 :=
  View.canon [⟨rOut, k0_pay1 (View.ld x0 rIn0) (View.ld x1 rIn1) (View.ld x2 rIn2) (View.ld x3 rIn3)⟩]

/-- The one store is the whole block, so it covers it. -/
theorem cover4 (p0 : Vec F S4000x20 .f32) (y : S4000x20.Idx) :
    ∃ pc ∈ ([⟨rOut, p0⟩] : List (View.Piece (Elt F) S4000x20 .f32)), y ∈ pc.1.set :=
  View.cover_of_tiled [⟨rOut, p0⟩] S4000x20.size (by rfl) y

/-! ## The body's triple -/

set_option maxHeartbeats 1000000 in
/-- On whole staging buffers, the inputs' reading `x0 … x3` and the output's holding anything, the body runs to
    its continuation with the inputs as they were and the output at `out4` of them. -/
theorem sound_kernel (c : Dev nD) (E : Set ℕ) (i : grid0.Coords)
    (a1 : Memref sig .tc .vmem S4000x512 .f32) (h1 : a1.IsWhole) (a2 : Memref sig .tc .vmem S512x128 .f32) (h2 : a2.IsWhole)
    (a3 : Memref sig .tc .vmem S128 .f32) (h3 : a3.IsWhole) (a4 : Memref sig .tc .vmem S128x20 .f32) (h4 : a4.IsWhole)
    (a5 : Memref sig .tc .vmem S4000x20 .f32) (h5 : a5.IsWhole)
    (x0 : Vec F S4000x512 .f32) (x1 : Vec F S512x128 .f32) (x2 : Vec F S128 .f32) (x3 : Vec F S128x20 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out4 x0 x1 x2 x3)) -∗ K ⟨⟩))
      ⊢ wp frame (wpE (defs₀ (F := F)) Variants.none c none) E (cc0__efc_proj_kernel i a1 h1 a2 h2 a3 h3 a4 h4 a5 h5) K := by
  simp only [cc0__efc_proj_kernel_eq_skeleton]; unfold cc0__efc_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The data of the region -/

/-- On core `c`: the arrays as the region finds them; after the body at point `t` each input buffer at its block
    and the output buffer at `out4` of the four input blocks; the invariant the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies; the invariant and what is
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the region
    ending at what the data determine and every other unscoped buffer at what the later lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The ten argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- info: 'Cert.KernelIdeal.Hand.frame' depends on axioms: [propext, Classical.choice, Quot.sound] -/
#guard_msgs in #print axioms frame

end Cert.KernelIdeal.Hand

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«172445_j86895778333433_2_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.KernelBlock.lean ====
/-
  One block of the fused projection, read at an index.

  At a grid point the kernel holds a block x of 4000 rows of the task features, the whole first weight w1, its
  bias b and the whole second weight w2 (two weight matrices side by side), and writes the block
  relu(x·w1 + b)·w2.  On the extended reals the entry at row p and column q is
      ∑ k, max (∑ j, x[p, j]·w1[j, k] + b[k]) 0 · w2[k, q] :
  both products are plain sums over the shared axis (the accumulators are zero), the bias is one row repeated down
  the block, and the clip is a maximum with the value of the all-zero word.
-/
import proofs.«172445_j86895778333433_2_alg».proof.Proof.Gen.KernelIdeal.Skeleton
import proofs.«172445_j86895778333433_2_alg».proof.Proof.LibDense
import Idealize.ShloMosaic.Lib.Pipeline.Value

noncomputable section

namespace Cert.KernelIdeal.Block

open Idealize.ShloMosaic Idealize.ShloMosaic.ValueIdx Cert.KernelIdeal Cert.KernelIdeal.Gen Cert.RowOps Cert.Dense

/-- Both products of the body are plain [M, K] × [K, N] products. -/
theorem plain1 : IsPlain dot_S4000x512_S512x128_S4000x128_1_0_0_1_n_n := ⟨rfl, rfl, rfl, rfl, rfl, rfl⟩
theorem plain2 : IsPlain dot_S4000x128_S128x20_S4000x20_1_0_0_1_n_n := ⟨rfl, rfl, rfl, rfl, rfl, rfl⟩

/-- Rows times weight plus a bias row, clipped at zero, at (r, c) — at any contraction precision, which the
    extended reals do not see. -/
theorem encode_apply {M K N : Nat} {d : DotDims ⟨2, ![M, K]⟩ ⟨2, ![K, N]⟩ ⟨2, ![M, N]⟩} (hd : IsPlain d)
    (prec : Option ContractPrecision) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d prec x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd prec x w r c)

/-- THE BLOCK AT (p, q). -/
theorem pay_apply (x0 : FVec Ideal S4000x512 .f32) (x1 : FVec Ideal S512x128 .f32) (x3 : FVec Ideal S128 .f32)
    (x9 : FVec Ideal S128x20 .f32) (p : Fin 4000) (q : Fin 20) :
    k0_pay1 (F := Ideal) x0 x1 x3 x9 (ix2 p q)
      = ∑ k : Fin 128, max ((∑ j : Fin 512, x0 (ix2 p j) * x1 (ix2 j k)) + x3 (ix1 k)) z * x9 (ix2 k q) := by
  unfold k0_pay1
  refine (matmul_zero_apply plain2 (some .fp32) _ _ p q).trans ?_
  refine Finset.sum_congr rfl fun k _ => ?_
  exact congrArg₂ (· * ·) (encode_apply plain1 (some .fp32) x0 x1 x3 _ _ p k)
    (congrFun (shapeCast_self x9 _) (ix2 k q))

/-- The same at an index given whole. -/
theorem pay_at (x0 : FVec Ideal S4000x512 .f32) (x1 : FVec Ideal S512x128 .f32) (x3 : FVec Ideal S128 .f32)
    (x9 : FVec Ideal S128x20 .f32) (j : S4000x20.Idx) :
    k0_pay1 (F := Ideal) x0 x1 x3 x9 j
      = ∑ k : Fin 128, max ((∑ i : Fin 512, x0 (ix2 (j 0) i) * x1 (ix2 i k)) + x3 (ix1 k)) z * x9 (ix2 k (j 1)) := by
  refine (congrArg (k0_pay1 (F := Ideal) x0 x1 x3 x9) (eq_ix2 j)).trans ?_
  exact pay_apply x0 x1 x3 x9 (j 0) (j 1)

end Cert.KernelIdeal.Block

end
-- ==== Proof.KernelProj.lean ====
/-
  The fused projection of every task row, as one function of the whole arrays:
      proj[r, c] = ∑ k, max (∑ j, x[r, j]·w1[j, k] + b[k]) 0 · w2[k, c].
-/
import proofs.«172445_j86895778333433_2_alg».proof.Proof.Gen.KernelIdeal
import proofs.«172445_j86895778333433_2_alg».proof.Proof.LibDense

noncomputable section

namespace Cert.KernelIdeal.Val

open Idealize.ShloMosaic Idealize.ShloMosaic.ValueIdx Cert.KernelIdeal Cert.Dense

/-- Entry (r, c) of the projected task rows. -/
def proj (X0 : FVec Ideal S100000x512 .f32) (W1 : FVec Ideal S512x128 .f32) (b : FVec Ideal S128 .f32)
    (Wc : FVec Ideal S128x20 .f32) : FVec Ideal S100000x20 .f32 :=
  fun i => ∑ k : Fin 128, max ((∑ j : Fin 512, X0 (ix2 (i 0) j) * W1 (ix2 j k)) + b (ix1 k)) z * Wc (ix2 k (i 1))

/-- The same with the coordinates explicit. -/
theorem proj_apply (X0 : FVec Ideal S100000x512 .f32) (W1 : FVec Ideal S512x128 .f32) (b : FVec Ideal S128 .f32)
    (Wc : FVec Ideal S128x20 .f32) (r : Fin 100000) (c : Fin 20) :
    proj X0 W1 b Wc (ix2 r c)
      = ∑ k : Fin 128, max ((∑ j : Fin 512, X0 (ix2 r j) * W1 (ix2 j k)) + b (ix1 k)) z * Wc (ix2 k c) := rfl

end Cert.KernelIdeal.Val

end
-- ==== Proof.KernelValue.lean ====
/-
  The array the region leaves: the fused projection of every task row.

  The region's grid has 25 points; point t reads rows 4000·t .. 4000·t + 3999 of the task features (and the two
  weights and the bias whole) and writes the same rows of the [100000, 20] result.  What it writes is the block
  computed in `Block.pay_at`, so row by row the result is one function of the arrays as the region finds them:
      proj[r, c] = ∑ k, max (∑ j, x[r, j]·w1[j, k] + b[k]) 0 · w2[k, c].
  The 25 row blocks tile the array (row r lies in block r / 4000), so after the run the whole array is `proj`.
-/
import proofs.«172445_j86895778333433_2_alg».proof.Proof.KernelIdealFrame
import proofs.«172445_j86895778333433_2_alg».proof.Proof.KernelBlock
import proofs.«172445_j86895778333433_2_alg».proof.Proof.KernelProj
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Hand Cert.KernelIdeal.Block Cert.Dense
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The printed block-index maps over the grid: the task rows' block moves with the result's, every other block
    index is zero, and the result's row-block index is the point's number. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (1 : Fin 2) = 0 ∧ win0_4.index t (0 : Fin 2) = t.val :=
  (by decide +kernel : ∀ t : Fin grid0.N, _)

set_option maxHeartbeats 4000000 in
/-- WHAT POINT t WRITES BACK is block t of `proj` of the arrays as the region finds them. -/
theorem flushed4_eq (c : Dev nD) (t : Fin cfg0.N) :
    (dats m 0 c).flushed 4 t = ((cfg0.win 4).blk t).view.read (Elt Ideal)
      (proj (V m c main_arg0) (V m c main_arg3) (V m c main_arg4) (V m c main_v29)) := by
  show (cfg0.win 4).cut (grid0.coords t) ((dats m 0 c).after 4 t) = _
  rw [after4]
  unfold out4
  rw [View.canon_unit_zero hz2]
  simp only [View.ld_unit_zero (S := S4000x512) hz2, View.ld_unit_zero (S := S512x128) hz2,
    View.ld_unit_zero (S := S128) hz1, View.ld_unit_zero (S := S128x20) hz2]
  obtain ⟨e0, e1, e2, e3, e4, e5, e6, e7, e8⟩ := idx_facts t
  funext j
  refine (pay_at _ _ _ _ j).trans ?_
  show _ = proj (V m c main_arg0) (V m c main_arg3) (V m c main_arg4) (V m c main_v29) (((cfg0.win 4).blk t).view.emb j)
  unfold proj
  refine Finset.sum_congr rfl fun k _ => ?_
  have h3 : ((cfg0.win 3).blk t).view.emb (ix2 k (j 1)) = ix2 k ((((cfg0.win 4).blk t).view.emb j) 1) := by
    funext a; apply Fin.ext
    match a with
    | ⟨0, _⟩ => show win0_3.index t (0 : Fin 2) * 128 + 1 * k.val = k.val; omega
    | ⟨1, _⟩ =>
      show win0_3.index t (1 : Fin 2) * 20 + 1 * (j 1).val = win0_4.index t (1 : Fin 2) * 20 + 1 * (j 1).val
      omega
  have r3 : iblk m c 3 t (ix2 k (j 1))
      = (V m c main_v29 : FVec Ideal S128x20 .f32) (ix2 k ((((cfg0.win 4).blk t).view.emb j) 1)) := by
    show (V m c main_v29 : FVec Ideal S128x20 .f32) (((cfg0.win 3).blk t).view.emb (ix2 k (j 1))) = _
    exact congrArg _ h3
  have h2 : ((cfg0.win 2).blk t).view.emb (ix1 k) = ix1 k := by
    funext a; apply Fin.ext
    match a with
    | ⟨0, _⟩ => show win0_2.index t (0 : Fin 1) * 128 + 1 * k.val = k.val; omega
  have r2 : iblk m c 2 t (ix1 k) = (V m c main_arg4 : FVec Ideal S128 .f32) (ix1 k) := by
    show (V m c main_arg4 : FVec Ideal S128 .f32) (((cfg0.win 2).blk t).view.emb (ix1 k)) = _
    exact congrArg _ h2
  refine congrArg₂ (· * ·) (congrArg (fun s => max s z) (congrArg₂ (· + ·) ?_ r2)) r3
  refine Finset.sum_congr rfl fun i _ => ?_
  have h0 : ((cfg0.win 0).blk t).view.emb (ix2 (j 0) i) = ix2 ((((cfg0.win 4).blk t).view.emb j) 0) i := by
    funext a; apply Fin.ext
    match a with
    | ⟨0, _⟩ =>
      show win0_0.index t (0 : Fin 2) * 4000 + 1 * (j 0).val = win0_4.index t (0 : Fin 2) * 4000 + 1 * (j 0).val
      omega
    | ⟨1, _⟩ => show win0_0.index t (1 : Fin 2) * 512 + 1 * i.val = i.val; omega
  have r0 : iblk m c 0 t (ix2 (j 0) i)
      = (V m c main_arg0 : FVec Ideal S100000x512 .f32) (ix2 ((((cfg0.win 4).blk t).view.emb j) 0) i) := by
    show (V m c main_arg0 : FVec Ideal S100000x512 .f32) (((cfg0.win 0).blk t).view.emb (ix2 (j 0) i)) = _
    exact congrArg _ h0
  have h1 : ((cfg0.win 1).blk t).view.emb (ix2 i k) = ix2 i k := by
    funext a; apply Fin.ext
    match a with
    | ⟨0, _⟩ => show win0_1.index t (0 : Fin 2) * 512 + 1 * i.val = i.val; omega
    | ⟨1, _⟩ => show win0_1.index t (1 : Fin 2) * 128 + 1 * k.val = k.val; omega
  have r1 : iblk m c 1 t (ix2 i k) = (V m c main_arg3 : FVec Ideal S512x128 .f32) (ix2 i k) := by
    show (V m c main_arg3 : FVec Ideal S512x128 .f32) (((cfg0.win 1).blk t).view.emb (ix2 i k)) = _
    exact congrArg _ h1
  exact congrArg₂ (· * ·) r0 r1

/-- An index of the result is in point t's block iff each coordinate is in the block's range on its axis. -/
theorem mem_blk4 (t : Fin cfg0.N) (i : S100000x20.Idx) :
    i ∈ ((cfg0.win 4).blk t).view.set ↔ ∀ a : Fin 2, win0_4.index t a * S4000x20.size a ≤ (i a).val
      ∧ (i a).val < win0_4.index t a * S4000x20.size a + S4000x20.size a := by
  show i ∈ ((View.whole main_v30).slice (win0_4.rect t)).set ↔ _
  rw [View.set_slice_whole, Rect.mem_set_unit]
  exact Iff.rfl

/-- The 25 row blocks tile the result: row r lies in the block of point r / 4000. -/
theorem covered4 (i : S100000x20.Idx) :
    ∃ t : Fin cfg0.N, (cfg0.win 4).flush t = true ∧ i ∈ ((cfg0.win 4).blk t).view.set := by
  have hi0 : (i 0).val < 100000 := (i 0).isLt
  have hi1 : (i 1).val < 20 := (i 1).isLt
  have hN : cfg0.N = 25 := N_0
  have ht : (i 0).val / 4000 < cfg0.N := by rw [hN]; omega
  obtain ⟨-, -, -, -, -, -, -, e7, e8⟩ := idx_facts ⟨(i 0).val / 4000, ht⟩
  refine ⟨⟨(i 0).val / 4000, ht⟩, flush0_4 _, ?_⟩
  rw [mem_blk4]
  intro a
  match a with
  | ⟨0, _⟩ =>
    show win0_4.index ⟨(i 0).val / 4000, ht⟩ (0 : Fin 2) * 4000 ≤ (i 0).val
      ∧ (i 0).val < win0_4.index ⟨(i 0).val / 4000, ht⟩ (0 : Fin 2) * 4000 + 4000
    rw [e8]
    show (i 0).val / 4000 * 4000 ≤ (i 0).val ∧ (i 0).val < (i 0).val / 4000 * 4000 + 4000
    omega
  | ⟨1, _⟩ =>
    show win0_4.index ⟨(i 0).val / 4000, ht⟩ (1 : Fin 2) * 20 ≤ (i 1).val
      ∧ (i 1).val < win0_4.index ⟨(i 0).val / 4000, ht⟩ (1 : Fin 2) * 20 + 20
    omega

/-- THE RESULT ARRAY after the region: `proj` of the arrays as the region finds them. -/
theorem final4 (c : Dev nD) : (dats m 0 c).arrAt 4 cfg0.N
    = proj (V m c main_arg0) (V m c main_arg3) (V m c main_arg4) (V m c main_v29) :=
  (dats m 0 c).arrAt_eq_of_cover 4 _ (fun t _ => flushed4_eq m c t) covered4

end Cert.KernelIdeal.Val

end
-- ==== Proof.KernelTail.lean ====
/-
  The host lines around the region, as functions of what they read.

  After the region the program stacks the projected task rows on the projected worker rows, takes the stacked rows
  along the edges (the source index wrapped when negative), scales each edge's row by the edge weight, adds the rows
  into the target nodes and adds the two biases laid side by side; columns 0..9 of that array are the means,
  columns 10..19 the log-deviations; z = mean + (eps·0.01)·exp(log-deviation); and the answer rows are the products
  of z's rows at the two ends of each answer.  Each stage below is that text as a function of the buffers it reads;
  `tail_*` say that running the 49 later lines from any contents leaves exactly these stages in the three result
  buffers, and `pre_*` say what the 37 earlier lines leave in the index, weight and stacked-weight buffers — the
  same expressions of the answers array that the reference program computes.
-/
import proofs.«172445_j86895778333433_2_alg».proof.Proof.Gen.KernelIdeal.Launch
import proofs.«172445_j86895778333433_2_alg».proof.Proof.Gen.ReferenceIdeal.Read
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen
open Cert.ReferenceIdeal.Read (val_main_v1 val_main_v5 val_main_v7 val_main_v8 val_main_v28)

variable {F : FTy → Type} [FloatOps F]

/-! ## The stages after the region -/

/-- The two output weights side by side. -/
def wcat (a5 a7 : FVec F S128x10 .f32) : FVec F S128x20 .f32 :=
  concatenate S128x20 1 [⟨S128x10, a5⟩, ⟨S128x10, a7⟩] concatenates_S128x10_S128x10_S128x20_d1

/-- An edge-index vector with negative entries wrapped by the number of nodes, as one column. -/
def wrapE (v : IVec S2100500 32) : IVec S2100500x1 32 :=
  broadcastInDim S2100500x1 ![0] bcast_S2100500_S2100500x1_0
    (select (cmpi .slt v (broadcastInDim S2100500 ![] bcast_S_S2100500 (constantI S_ 32 0#32)))
      (addi v (broadcastInDim S2100500 ![] bcast_S_S2100500 (constantI S_ 32 100500#32))) v)

/-- The same for an answer-index vector. -/
def wrapA (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100500#32))) v)

/-- The stacked node features: the region's result on the projected worker rows. -/
def stack (h30 : FVec F S100000x20 .f32) (a2 : FVec F S500x128 .f32) (wc : FVec F S128x20 .f32) : FVec F S100500x20 .f32 :=
  concatenate S100500x20 0 [⟨S100000x20, h30⟩,
    ⟨S500x20, Host.dotGeneral dot_S500x128_S128x20_S500x20_1_0_0_1_n_n (some .fp32) a2 wc⟩] concatenates_S100000x20_S500x20_S100500x20_d0

/-- One aggregation step on the 20 columns, plus the two biases side by side. -/
def agg (h30 : FVec F S100000x20 .f32) (a2 : FVec F S500x128 .f32) (wc : FVec F S128x20 .f32) (v8 : IVec S2100500 32)
    (v28 : FVec F S2100500 .f32) (v7 : IVec S2100500 32) (a6 a8 : FVec F S10 .f32) : FVec F S100500x20 .f32 :=
  addf (Host.scatterAdd scatter_S100500x20_S2100500x1_S2100500x20_1_0_0_1
      (broadcastInDim S100500x20 ![] bcast_S_S100500x20 (constant S_ .f32 0x00000000#32))
      (broadcastInDim S2100500x1 ![0] bcast_S2100500_S2100500x1_0 v7)
      (mulf (Host.gather gather_S100500x20_S2100500x1_S2100500x20_1_0_n_n_0_1_120 (stack h30 a2 wc) (wrapE v8))
        (broadcastInDim S2100500x20 ![0, 1] bcast_S2100500x1_S2100500x20_0_1
          (broadcastInDim S2100500x1 ![0] bcast_S2100500_S2100500x1_0 v28))))
    (broadcastInDim S100500x20 ![0, 1] bcast_S1x20_S100500x20_0_1
      (broadcastInDim S1x20 ![1] bcast_S20_S1x20_1 (concatenate S20 0 [⟨S10, a6⟩, ⟨S10, a8⟩] concatenates_S10_S10_S20_d0)))

/-- Columns 0..9. -/
def mean (A : FVec F S100500x20 .f32) : FVec F S100500x10 .f32 :=
  extractStridedSlice S100500x10 ![0, 0] A slices_S100500x20_S100500x10_0_0
/-- Columns 10..19. -/
def logstd (A : FVec F S100500x20 .f32) : FVec F S100500x10 .f32 :=
  extractStridedSlice S100500x10 ![0, 10] A slices_S100500x20_S100500x10_0_10

/-- z from the means, the log-deviations and the noise. -/
def zval (mu ls a9 : FVec F S100500x10 .f32) : FVec F S100500x10 .f32 :=
  addf mu (mulf (mulf a9 (broadcastInDim S100500x10 ![] bcast_S_S100500x10 (constant S_ .f32 0x3C23D70A#32))) (Host.exp ls))

/-- The answer rows: z at the task end times z at the worker end. -/
def crowd (Z : FVec F S100500x10 .f32) (v1 v5 : IVec S1000000 32) : FVec F S1000000x10 .f32 :=
  mulf (Host.gather gather_S100500x10_S1000000x1_S1000000x10_1_0_n_n_0_1_110 Z (wrapA v1))
    (Host.gather gather_S100500x10_S1000000x1_S1000000x10_1_0_n_n_0_1_110 Z (wrapA v5))

/-- The aggregation as the later lines read it off a valuation. -/
abbrev aggOf (W : Valuation τ sig (Elt F)) : FVec F S100500x20 .f32 :=
  agg (W (Proc.devRef .tc main_v30)) (W (Proc.devRef .tc main_arg2)) (W (Proc.devRef .tc main_v29))
    (W (Proc.devRef .tc main_v8)) (W (Proc.devRef .tc main_v28)) (W (Proc.devRef .tc main_v7))
    (W (Proc.devRef .tc main_arg6)) (W (Proc.devRef .tc main_arg8))

/-! ## The later lines leave these stages -/

set_option maxHeartbeats 4000000 in
theorem tail_v50 (W : Valuation τ sig (Elt F)) :
    (StableHlo.after hostOps1 W (Proc.devRef .tc main_v50) : FVec F S100500x10 .f32) = mean (aggOf W) := by
  unfold hostOps1
  after_results_simp <;> rfl

set_option maxHeartbeats 4000000 in
theorem tail_v51 (W : Valuation τ sig (Elt F)) :
    (StableHlo.after hostOps1 W (Proc.devRef .tc main_v51) : FVec F S100500x10 .f32) = logstd (aggOf W) := by
  unfold hostOps1
  after_results_simp <;> rfl

set_option maxHeartbeats 8000000 in
theorem tail_v71 (W : Valuation τ sig (Elt F)) :
    (StableHlo.after hostOps1 W (Proc.devRef .tc main_v71) : FVec F S1000000x10 .f32)
      = crowd (zval (mean (aggOf W)) (logstd (aggOf W)) (W (Proc.devRef .tc main_arg9)))
          (W (Proc.devRef .tc main_v1)) (W (Proc.devRef .tc main_v5)) := by
  unfold hostOps1
  after_results_simp <;> rfl

/-! ## What the earlier lines leave -/

set_option maxHeartbeats 4000000 in
theorem pre_v1 (W : Valuation τ sig (Elt F)) :
    (StableHlo.after hostOps0 W (Proc.devRef .tc main_v1) : IVec S1000000 32)
      = val_main_v1 (F := F) (W (Proc.devRef .tc main_arg1)) := by
  unfold hostOps0
  after_results_simp <;> rfl

set_option maxHeartbeats 4000000 in
theorem pre_v5 (W : Valuation τ sig (Elt F)) :
    (StableHlo.after hostOps0 W (Proc.devRef .tc main_v5) : IVec S1000000 32)
      = val_main_v5 (F := F) (W (Proc.devRef .tc main_arg1)) := by
  unfold hostOps0
  after_results_simp <;> rfl

set_option maxHeartbeats 4000000 in
theorem pre_v7 (W : Valuation τ sig (Elt F)) :
    (StableHlo.after hostOps0 W (Proc.devRef .tc main_v7) : IVec S2100500 32)
      = val_main_v7 (F := F) (W (Proc.devRef .tc main_arg1)) := by
  unfold hostOps0
  after_results_simp <;> rfl

set_option maxHeartbeats 4000000 in
theorem pre_v8 (W : Valuation τ sig (Elt F)) :
    (StableHlo.after hostOps0 W (Proc.devRef .tc main_v8) : IVec S2100500 32)
      = val_main_v8 (F := F) (W (Proc.devRef .tc main_arg1)) := by
  unfold hostOps0
  after_results_simp <;> rfl

set_option maxHeartbeats 8000000 in
theorem pre_v28 (W : Valuation τ sig (Elt F)) :
    (StableHlo.after hostOps0 W (Proc.devRef .tc main_v28) : FVec F S2100500 .f32)
      = val_main_v28 (F := F) (W (Proc.devRef .tc main_arg1)) := by
  unfold hostOps0
  after_results_simp <;> rfl

set_option maxHeartbeats 4000000 in
theorem pre_v29 (W : Valuation τ sig (Elt F)) :
    (StableHlo.after hostOps0 W (Proc.devRef .tc main_v29) : FVec F S128x20 .f32)
      = wcat (W (Proc.devRef .tc main_arg5)) (W (Proc.devRef .tc main_arg7)) := by
  unfold hostOps0
  after_results_simp <;> rfl

end Cert.KernelIdeal.Tail

end
-- ==== Proof.LibScatterAt.lean ====
/-
  A host scatter read at one index of its result.

  The host's `scatter` is a left fold over all the update indices, in row-major order: each update index `j` has
  a landing place `d.resultIdx? j idx` in the operand (or none, when its window leaves the operand), and the step
  for `j` replaces the element there by the body `f` applied to it and to the update's element at `j`.
  When distinct update indices never land on the same place, the element of the result at a place `i` has met
  at most one step:
    * `Host.scatter_apply_of_miss`: no update index lands on `i`  ⟹  the result at `i` is the operand's element;
    * `Host.scatter_apply_of_hit`:  `j₀` lands on `i`             ⟹  the result at `i` is `f (x i) (upd j₀)`.
  Both hold for any body `f` and any element type; nothing is evaluated, so the number of update indices is
  irrelevant. The first needs no injectivity. `ScatterDims.resultIdx?_val` reads a landing place coordinate by
  coordinate (start plus window coordinate), which is how the two hypotheses are met for given dimension numbers.
-/
import Idealize.ShloMosaic.PureOps.ShapeOps

namespace Idealize.ShloMosaic

section ScatterAt
variable {s si u : Shape} {α : Type} {w : Nat}

/-- The step of `Host.scatter`'s fold at the update index of row-major position `n`. -/
def Host.scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- `Host.scatter` is the fold of that step over all positions. -/
theorem Host.scatter_eq_foldl (d : ScatterDims s si u) (f : α → α → α) (x : s.Idx → α) (idx : IVec si w) (upd : u.Idx → α) :
    Host.scatter d f x idx upd = (List.finRange u.numel).foldl (Host.scatterStep d f idx upd) x := rfl

/-- A step whose update index lands elsewhere (or nowhere) leaves the element at `i` alone. -/
theorem Host.scatterStep_apply_of_ne (d : ScatterDims s si u) (f : α → α → α) (idx : IVec si w) (upd : u.Idx → α)
    (r : s.Idx → α) (n : Fin u.numel) (i : s.Idx) (h : d.resultIdx? (u.rowMajor.symm n) idx ≠ some i) :
    Host.scatterStep d f idx upd r n i = r i := by
  unfold Host.scatterStep
  generalize d.resultIdx? (u.rowMajor.symm n) idx = o at h ⊢
  cases o with
  | none => rfl
  | some k => exact if_neg fun e => h (congrArg some e.symm)

/-- A step whose update index lands on `i` applies the body there. -/
theorem Host.scatterStep_apply_of_eq (d : ScatterDims s si u) (f : α → α → α) (idx : IVec si w) (upd : u.Idx → α)
    (r : s.Idx → α) (n : Fin u.numel) (i : s.Idx) (h : d.resultIdx? (u.rowMajor.symm n) idx = some i) :
    Host.scatterStep d f idx upd r n i = f (r i) (upd (u.rowMajor.symm n)) := by
  unfold Host.scatterStep
  generalize d.resultIdx? (u.rowMajor.symm n) idx = o at h ⊢
  cases o with
  | none => exact absurd h (by simp)
  | some k =>
    have e : k = i := Option.some.inj h
    subst e
    exact if_pos rfl

/-- A run of steps none of which lands on `i` leaves the element at `i` alone. -/
theorem Host.foldl_scatterStep_apply_of_miss (d : ScatterDims s si u) (f : α → α → α) (idx : IVec si w) (upd : u.Idx → α)
    (i : s.Idx) : ∀ (l : List (Fin u.numel)) (r : s.Idx → α),
      (∀ n ∈ l, d.resultIdx? (u.rowMajor.symm n) idx ≠ some i) → l.foldl (Host.scatterStep d f idx upd) r i = r i
  | [], _, _ => rfl
  | a :: l, r, h => by
    rw [List.foldl_cons, Host.foldl_scatterStep_apply_of_miss d f idx upd i l _ fun n hn => h n (List.mem_cons_of_mem _ hn)]
    exact Host.scatterStep_apply_of_ne d f idx upd r a i (h a (List.mem_cons_self ..))

/-- NO UPDATE INDEX LANDS ON `i`: the scatter's result there is the operand's element. -/
theorem Host.scatter_apply_of_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [Host.scatter_eq_foldl]
  exact Host.foldl_scatterStep_apply_of_miss d f idx upd i _ x fun n _ => h _

/-- A run of steps over distinct positions, one of which is the position of `j₀`, which lands on `i` and is the
    only update index to do so: the element at `i` has met the body once, with the update's element at `j₀`. -/
theorem Host.foldl_scatterStep_apply_of_hit (d : ScatterDims s si u) (f : α → α → α) (idx : IVec si w) (upd : u.Idx → α)
    (i : s.Idx) (j₀ : u.Idx) (h₀ : d.resultIdx? j₀ idx = some i)
    (huniq : ∀ j : u.Idx, d.resultIdx? j idx = some i → j = j₀) :
    ∀ (l : List (Fin u.numel)) (r : s.Idx → α), l.Nodup → u.rowMajor j₀ ∈ l →
      l.foldl (Host.scatterStep d f idx upd) r i = f (r i) (upd j₀)
  | [], _, _, hm => absurd hm (List.not_mem_nil)
  | a :: l, r, hnd, hm => by
    have hal : a ∉ l := (List.nodup_cons.1 hnd).1
    have hl : l.Nodup := (List.nodup_cons.1 hnd).2
    rw [List.foldl_cons]
    by_cases ha : a = u.rowMajor j₀
    · -- this step is the one; none after it lands on `i`
      have hrest : ∀ n ∈ l, d.resultIdx? (u.rowMajor.symm n) idx ≠ some i := fun n hn hk => by
        have : n = u.rowMajor j₀ := by rw [← huniq _ hk, Equiv.apply_symm_apply]
        exact hal (ha ▸ this ▸ hn)
      rw [Host.foldl_scatterStep_apply_of_miss d f idx upd i l _ hrest]
      have hj : u.rowMajor.symm a = j₀ := by rw [ha, Equiv.symm_apply_apply]
      rw [Host.scatterStep_apply_of_eq d f idx upd r a i (hj ▸ h₀), hj]
    · -- this step lands elsewhere; the one comes later
      have hm' : u.rowMajor j₀ ∈ l := by
        rcases List.mem_cons.1 hm with h | h
        · exact absurd h.symm ha
        · exact h
      have hne : d.resultIdx? (u.rowMajor.symm a) idx ≠ some i := fun hk =>
        ha (by rw [← huniq _ hk, Equiv.apply_symm_apply])
      rw [Host.foldl_scatterStep_apply_of_hit d f idx upd i j₀ h₀ huniq l _ hl hm',
        Host.scatterStep_apply_of_ne d f idx upd r a i hne]

/-- THE UPDATE INDEX `j₀`, AND NO OTHER, LANDS ON `i`: the scatter's result there is the body applied to the
    operand's element and the update's element at `j₀`. -/
theorem Host.scatter_apply_of_hit (d : ScatterDims s si u) (f : α → α → α) (x : s.Idx → α) (idx : IVec si w) (upd : u.Idx → α)
    (i : s.Idx) (j₀ : u.Idx) (h₀ : d.resultIdx? j₀ idx = some i)
    (huniq : ∀ j : u.Idx, d.resultIdx? j idx = some i → j = j₀) :
    Host.scatter d f x idx upd i = f (x i) (upd j₀) := by
  rw [Host.scatter_eq_foldl]
  exact Host.foldl_scatterStep_apply_of_hit d f idx upd i j₀ h₀ huniq _ x (List.nodup_finRange _) (List.mem_finRange _)

/-- WHERE AN UPDATE INDEX LANDS, coordinate by coordinate: the window's start on the axis plus the update's window
    coordinate there (as integers: the start is read signed). -/
theorem ScatterDims.resultIdx?_val (d : ScatterDims s si u) {j : u.Idx} {idx : IVec si w} {k : s.Idx}
    (h : d.resultIdx? j idx = some k) (a : Fin s.rank) :
    ((k a).val : ℤ) = d.start j idx a + (d.window j a : ℤ) := by
  unfold ScatterDims.resultIdx? at h
  by_cases hb : ∀ a, 0 ≤ d.start j idx a + d.window j a ∧ d.start j idx a + d.window j a < s.size a
  · rw [dif_pos hb] at h
    have e := Option.some.inj h
    subst e
    exact Int.toNat_of_nonneg (hb a).1
  · rw [dif_neg hb] at h
    exact absurd h (by simp)

end ScatterAt

end Idealize.ShloMosaic
-- ==== Proof.LibScatterLand.lean ====
/-
  Where a host scatter's update index lands, as one equation per axis.

  An update index lands on an operand index exactly when, on every axis, the operand coordinate is the window's
  start on that axis plus the update's window coordinate there (as integers: the start is read signed).  This is the
  form in which a landing place is both exhibited (for the index that hits) and refuted (for an index that cannot).
-/
import proofs.«172445_j86895778333433_2_alg».proof.Proof.LibScatterAt

namespace Idealize.ShloMosaic

/-- An update index `j` lands on `i` iff on every axis `i`'s coordinate is the start plus the window coordinate. -/
theorem ScatterDims.resultIdx?_eq_some_iff {s si u : Shape} (d : ScatterDims s si u) {w : Nat} (j : u.Idx)
    (idx : IVec si w) (i : s.Idx) :
    d.resultIdx? j idx = some i ↔ ∀ a, ((i a).val : ℤ) = d.start j idx a + (d.window j a : ℤ) := by
  constructor
  · intro h a; exact ScatterDims.resultIdx?_val d h a
  · intro h
    have hb : ∀ a, 0 ≤ d.start j idx a + d.window j a ∧ d.start j idx a + d.window j a < s.size a := fun a => by
      rw [← h a]; exact ⟨Int.natCast_nonneg _, by exact_mod_cast (i a).isLt⟩
    unfold ScatterDims.resultIdx?
    rw [dif_pos hb]
    congr 1
    funext a
    apply Fin.ext
    show (d.start j idx a + d.window j a).toNat = (i a).val
    rw [← h a]
    exact Int.toNat_natCast _

end Idealize.ShloMosaic
-- ==== Proof.LibRowTake.lean ====
/-
  Rows taken out of a two-dimensional array, and rows added into one, on the extended reals.

  Two host operations of a message-passing step over an edge list act on whole rows of an [N, C] array.
  Taking rows: a gather whose start indices are one row number per edge reads, at (e, k), the array at row
  number e's start index — read as a signed integer and clamped into [0, N-1] — and column k.
  Adding rows: the accumulating scatter whose scatter indices are one row number per edge adds row e of the
  updates into the row its index names (read signed, not clamped; an index outside [0, N) adds nothing).
  At (n, k) the result is the operand's entry plus the sum, over the edges whose index is n, of the updates'
  entries at (e, k): column k of the result depends on column k of the operand and of the updates only.
-/
import Idealize.ShloMosaic.PureOps.Ideal.Laws
import Idealize.ShloMosaic.Lib.ValueIdx
import proofs.«172445_j86895778333433_2_alg».proof.Proof.LibScatterLand

noncomputable section

namespace Cert.RowTake

open Idealize.ShloMosaic Idealize.ShloMosaic.ValueIdx

/-! ## Taking rows -/

section Gather
variable {α : Type}

/-- The dimension numbers of "take whole rows": the row axis collapsed and indexed, the column axis an offset axis. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROWS TAKEN, READ AT (e, k): the array at the clamped start index of edge e, column k. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherDims N E C wf) x idx (ix2 e k)
      = x (ix2 ⟨min (idx (ix2 e (0 : Fin 1))).toInt.toNat (N - 1), by omega⟩ k) := by
  unfold Host.gather
  congr 1
  funext a
  refine Fin.ext ?_
  have hsi : (gatherDims N E C wf).siIdx (ix2 e k) ⟨List.idxOf (0 : Fin 2) (gatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (gatherDims N E C wf).start (ix2 e k) idx 0 + (gatherDims N E C wf).batchCoord (ix2 e k) 0
      + (gatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl), hsi]
    rfl
  | ⟨1, _⟩ =>
    show (gatherDims N E C wf).start (ix2 e k) idx 1 + (gatherDims N E C wf).batchCoord (ix2 e k) 1
      + (gatherDims N E C wf).offCoord (ix2 e k) 1 = _
    rw [GatherDims.batchCoord_eq_zero _ _ _ List.not_mem_nil]
    unfold GatherDims.start
    rw [dif_neg (show (1 : Fin 2) ∉ (gatherDims N E C wf).startIndexMap from (by decide : (1 : Fin 2) ∉ [(0 : Fin 2)]))]
    simp only [Nat.add_zero, Nat.zero_add]
    unfold GatherDims.offCoord
    rw [dif_pos (show (1 : Fin 2) ∈ (gatherDims N E C wf).sKept from
      (GatherDims.mem_sKept _ _).mpr ⟨(by decide : (1 : Fin 2) ∉ [(0 : Fin 2)]), List.not_mem_nil⟩)]
    rfl

end Gather

/-! ## Adding rows -/

section Scatter

/-- The dimension numbers of "add whole rows": the row axis inserted and indexed, the column axis a window axis. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- The operand's axes that take a window coordinate: the column axis only. -/
theorem mem_sKept (a : Fin 2) : a ∈ (scatterDims N E C wf).sKept ↔ a ∉ [(0 : Fin 2)] := by
  simp [ScatterDims.sKept, Shape.kept, List.mem_filter, List.mem_finRange]

/-- The start of edge e's row on the row axis is its index read signed. -/
theorem start_row (idx : IVec ⟨2, ![E, 1]⟩ w) (e : Fin E) (k : Fin C) :
    (scatterDims N E C wf).start (ix2 e k) idx 0 = (idx (ix2 e (0 : Fin 1))).toInt := by
  unfold ScatterDims.start
  rw [dif_pos (show (0 : Fin 2) ∈ (scatterDims N E C wf).scatterDimsToOperandDims from List.mem_singleton.mpr rfl)]
  congr 2
  funext b; refine Fin.ext ?_
  match b with
  | ⟨0, _⟩ => rfl
  | ⟨1, _⟩ => rfl

/-- No start on the column axis. -/
theorem start_col (idx : IVec ⟨2, ![E, 1]⟩ w) (j : (⟨2, ![E, C]⟩ : Shape).Idx) :
    (scatterDims N E C wf).start j idx 1 = 0 := by
  unfold ScatterDims.start
  rw [dif_neg (show (1 : Fin 2) ∉ (scatterDims N E C wf).scatterDimsToOperandDims from
    (by decide : (1 : Fin 2) ∉ [(0 : Fin 2)]))]

/-- The window coordinate on the row axis is zero, -/
theorem window_row (j : (⟨2, ![E, C]⟩ : Shape).Idx) : (scatterDims N E C wf).window j 0 = 0 := by
  unfold ScatterDims.window
  rw [dif_neg (fun h => (mem_sKept wf 0).mp h (List.mem_singleton.mpr rfl))]

/-- and on the column axis the update's column. -/
theorem window_col (j : (⟨2, ![E, C]⟩ : Shape).Idx) : (scatterDims N E C wf).window j 1 = (j 1).val := by
  unfold ScatterDims.window
  rw [dif_pos ((mem_sKept wf 1).mpr (by decide))]
  rfl

/-- WHERE THE UPDATE AT (e, k') LANDS: on (n, k) exactly when edge e's index is n and k' = k. -/
theorem lands_iff (idx : IVec ⟨2, ![E, 1]⟩ w) (e : Fin E) (k' : Fin C) (n : Fin N) (k : Fin C) :
    (scatterDims N E C wf).resultIdx? (ix2 e k') idx = some (ix2 n k)
      ↔ (n.val : ℤ) = (idx (ix2 e (0 : Fin 1))).toInt ∧ k' = k := by
  rw [ScatterDims.resultIdx?_eq_some_iff]
  constructor
  · intro h
    have h0 : ((n.val : ℕ) : ℤ) = (scatterDims N E C wf).start (ix2 e k') idx 0
        + ((scatterDims N E C wf).window (ix2 e k') 0 : ℤ) := h 0
    have h1 : ((k.val : ℕ) : ℤ) = (scatterDims N E C wf).start (ix2 e k') idx 1
        + ((scatterDims N E C wf).window (ix2 e k') 1 : ℤ) := h 1
    rw [start_row, window_row] at h0
    rw [start_col, window_col] at h1
    refine ⟨by simpa using h0, Fin.ext ?_⟩
    have h2 : ((k.val : ℕ) : ℤ) = 0 + ((k'.val : ℕ) : ℤ) := h1
    omega
  · rintro ⟨h0, rfl⟩ a
    match a with
    | ⟨0, _⟩ =>
      show ((n.val : ℕ) : ℤ) = (scatterDims N E C wf).start (ix2 e k') idx 0
        + ((scatterDims N E C wf).window (ix2 e k') 0 : ℤ)
      rw [start_row, window_row]; simpa using h0
    | ⟨1, _⟩ =>
      show ((k'.val : ℕ) : ℤ) = (scatterDims N E C wf).start (ix2 e k') idx 1
        + ((scatterDims N E C wf).window (ix2 e k') 1 : ℤ)
      rw [start_col, window_col]
      show ((k'.val : ℕ) : ℤ) = 0 + ((k'.val : ℕ) : ℤ)
      omega

/-- THE ROWS ADDED, READ AT (n, k): the operand's entry plus the updates' column k summed over the edges whose
    index is n. -/
theorem scatterAdd_rows_apply (x : FVec Ideal ⟨2, ![N, C]⟩ .f32) (idx : IVec ⟨2, ![E, 1]⟩ w)
    (upd : FVec Ideal ⟨2, ![E, C]⟩ .f32) (n : Fin N) (k : Fin C) :
    Host.scatterAdd (scatterDims N E C wf) x idx upd (ix2 n k)
      = x (ix2 n k) + ∑ e ∈ Finset.univ.filter (fun e : Fin E => (n.val : ℤ) = (idx (ix2 e (0 : Fin 1))).toInt),
          upd (ix2 e k) := by
  show Ideal.hostScatterAdd (scatterDims N E C wf) x idx upd (ix2 n k) = _
  unfold Ideal.hostScatterAdd
  congr 1
  rw [Finset.sum_filter, sum_idx2, Finset.sum_filter]
  refine Finset.sum_congr rfl fun e _ => ?_
  simp only [lands_iff wf idx e _ n k]
  by_cases hq : (n.val : ℤ) = (idx (ix2 e (0 : Fin 1))).toInt
  · simp [hq]
  · simp [hq]

end Scatter

end Cert.RowTake

end
-- ==== Proof.LibStepColumns.lean ====
/-
  One column of a graph-convolution step, and one column of the node features it aggregates.

  A graph-convolution step takes rows of node features along the edges, scales each edge's row by the edge's
  weight, adds the rows into the nodes the edges point at, and adds a bias to every node's row.  Every one of
  these acts on each column by itself: column c of the result is computed from column c of the features, of
  the starting values and of the bias.  So a step run once on features [N, C] and cut to columns c0 .. c0 + C'
  is the step run on those columns of the features (`step_col`).

  The node features here are a dense layer's: the first T nodes carry relu(x·W1 + b)·W, the last P nodes
  carry y·W, with W = [Wm | Wl] two weights side by side.  Column c0 + q of that array is column q of the same
  layer taken with the one weight that covers the column (`hidden_col`).
-/
import Idealize.ShloMosaic.Lib.IdealHost
import Idealize.ShloMosaic.Lib.ValueLayout
import proofs.«172445_j86895778333433_2_alg».proof.Proof.LibRowTake
import proofs.«172445_j86895778333433_2_alg».proof.Proof.LibDense

noncomputable section

namespace Cert.Bridge

open Idealize.ShloMosaic Idealize.ShloMosaic.ValueIdx Cert.RowTake Cert.Dense Cert.RowOps

/-- A length-a vector laid down as an [a, 1] column and repeated over b columns reads, at (p, c), the vector at p. -/
theorem colSpread_apply {α : Type} {a b : Nat} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  rw [broadcastInDim_apply ![0, 1] h2 _ (ix2 p c) (ix2 p (0 : Fin 1)) (fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- ONE COLUMN OF A STEP: take rows along the edges, scale, add into the target nodes, add the bias. Column
    c0 + q of the step on [N, C] is column q of the step on the arrays' columns c0 .. c0 + C'. -/
theorem step_col {N E C C' w : Nat} (c0 : Nat) (hc : ∀ q : Fin C', c0 + q.val < C) (hN : 0 < N)
    (wfg : GatherDims.WF ⟨2, ![N, C]⟩ ⟨2, ![E, 1]⟩ ⟨2, ![E, C]⟩ [1] [0] [] [0] [] 1 ![1, C])
    (wfg' : GatherDims.WF ⟨2, ![N, C']⟩ ⟨2, ![E, 1]⟩ ⟨2, ![E, C']⟩ [1] [0] [] [0] [] 1 ![1, C'])
    (wfs : ScatterDims.WF ⟨2, ![N, C]⟩ ⟨2, ![E, 1]⟩ ⟨2, ![E, C]⟩ [1] [0] [0] 1)
    (wfs' : ScatterDims.WF ⟨2, ![N, C']⟩ ⟨2, ![E, 1]⟩ ⟨2, ![E, C']⟩ [1] [0] [0] 1)
    (Z : FVec Ideal ⟨2, ![N, C]⟩ .f32) (Z' : FVec Ideal ⟨2, ![N, C']⟩ .f32) (R Cc : IVec ⟨2, ![E, 1]⟩ w)
    (H : FVec Ideal ⟨2, ![N, C]⟩ .f32) (H' : FVec Ideal ⟨2, ![N, C']⟩ .f32)
    (Wb : FVec Ideal ⟨2, ![E, C]⟩ .f32) (Wb' : FVec Ideal ⟨2, ![E, C']⟩ .f32)
    (B : FVec Ideal ⟨2, ![N, C]⟩ .f32) (B' : FVec Ideal ⟨2, ![N, C']⟩ .f32)
    (hZ : ∀ n q, Z' (ix2 n q) = Z (ix2 n ⟨c0 + q.val, hc q⟩))
    (hH : ∀ n q, H' (ix2 n q) = H (ix2 n ⟨c0 + q.val, hc q⟩))
    (hW : ∀ e q, Wb' (ix2 e q) = Wb (ix2 e ⟨c0 + q.val, hc q⟩))
    (hB : ∀ n q, B' (ix2 n q) = B (ix2 n ⟨c0 + q.val, hc q⟩)) (n : Fin N) (q : Fin C') :
    addf (Host.scatterAdd (scatterDims N E C wfs) Z R (mulf (Host.gather (gatherDims N E C wfg) H Cc) Wb)) B
        (ix2 n ⟨c0 + q.val, hc q⟩)
      = addf (Host.scatterAdd (scatterDims N E C' wfs') Z' R (mulf (Host.gather (gatherDims N E C' wfg') H' Cc) Wb')) B'
        (ix2 n q) := by
  rw [addf_apply, addf_apply, scatterAdd_rows_apply, scatterAdd_rows_apply, hZ, hB]
  congr 2
  refine Finset.sum_congr rfl fun e _ => ?_
  rw [mulf_apply, mulf_apply, gather_rows_apply hN, gather_rows_apply hN, hH, hW]

/-- ONE COLUMN OF THE NODE FEATURES.  `G` is what the first T nodes carry, given entry by entry (`hG`); the last P
    nodes carry y·W.  With `Wsel` the columns c0 .. c0 + C' of W (`hWsel`), column c0 + q of the stacked array is
    column q of [relu(x·W1 + b) ; y]·Wsel. -/
theorem hidden_col {T P N Kin Hd C C' : Nat} (hNT : N = T + P) (c0 : Nat) (hc : ∀ q : Fin C', c0 + q.val < C)
    {d3 : DotDims ⟨2, ![P, Hd]⟩ ⟨2, ![Hd, C]⟩ ⟨2, ![P, C]⟩} (h3 : IsPlain d3)
    {d4 : DotDims ⟨2, ![N, Hd]⟩ ⟨2, ![Hd, C']⟩ ⟨2, ![N, C']⟩} (h4 : IsPlain d4)
    {d5 : DotDims ⟨2, ![T, Kin]⟩ ⟨2, ![Kin, Hd]⟩ ⟨2, ![T, Hd]⟩} (h5 : IsPlain d5)
    (prec : Option ContractPrecision)
    (X0 : FVec Ideal ⟨2, ![T, Kin]⟩ .f32) (W1 : FVec Ideal ⟨2, ![Kin, Hd]⟩ .f32) (b : FVec Ideal ⟨1, ![Hd]⟩ .f32)
    (X2 : FVec Ideal ⟨2, ![P, Hd]⟩ .f32) (Wcat : FVec Ideal ⟨2, ![Hd, C]⟩ .f32) (Wsel : FVec Ideal ⟨2, ![Hd, C']⟩ .f32)
    (G : FVec Ideal ⟨2, ![T, C]⟩ .f32)
    (hG : ∀ r c, G (ix2 r c)
      = ∑ k : Fin Hd, max ((∑ j : Fin Kin, X0 (ix2 r j) * W1 (ix2 j k)) + b (ix1 k)) z * Wcat (ix2 k c))
    (hWsel : ∀ k q, Wsel (ix2 k q) = Wcat (ix2 k ⟨c0 + q.val, hc q⟩))
    (hcatF : Shape.Concatenates [⟨2, ![T, C]⟩, ⟨2, ![P, C]⟩] ⟨2, ![N, C]⟩ 0)
    (hcatX : Shape.Concatenates [⟨2, ![T, Hd]⟩, ⟨2, ![P, Hd]⟩] ⟨2, ![N, Hd]⟩ 0)
    (h1 : (⟨1, ![Hd]⟩ : Shape).BroadcastsInDim ⟨2, ![1, Hd]⟩ ![1])
    (h2 : (⟨2, ![1, Hd]⟩ : Shape).BroadcastsInDim ⟨2, ![T, Hd]⟩ ![0, 1])
    (h0 : (⟨0, ![]⟩ : Shape).BroadcastsInDim ⟨2, ![T, Hd]⟩ ![]) (n : Fin N) (q : Fin C') :
    Host.dotGeneral d4 none (concatenate ⟨2, ![N, Hd]⟩ 0
        [⟨⟨2, ![T, Hd]⟩, maximumf (addf (Host.dotGeneral d5 none X0 W1)
            (broadcastInDim ⟨2, ![T, Hd]⟩ ![0, 1] h2 (broadcastInDim ⟨2, ![1, Hd]⟩ ![1] h1 b)))
            (broadcastInDim ⟨2, ![T, Hd]⟩ ![] h0 (constant (F := Ideal) ⟨0, ![]⟩ .f32 0x00000000#32))⟩,
         ⟨⟨2, ![P, Hd]⟩, X2⟩] hcatX) Wsel (ix2 n q)
      = concatenate ⟨2, ![N, C]⟩ 0 [⟨⟨2, ![T, C]⟩, G⟩, ⟨⟨2, ![P, C]⟩, Host.dotGeneral d3 prec X2 Wcat⟩] hcatF
        (ix2 n ⟨c0 + q.val, hc q⟩) := by
  refine (hostDot_apply h4 none .single _ Wsel n q).trans ?_
  by_cases hn : n.val < T
  · rw [concatenate_pair_apply_left 0 G _ hcatF (ix2 n ⟨c0 + q.val, hc q⟩) rfl (ix2 ⟨n.val, hn⟩ ⟨c0 + q.val, hc q⟩)
      (fun ax => by match ax with | ⟨0, _⟩ => rfl | ⟨1, _⟩ => rfl), hG]
    refine Finset.sum_congr rfl fun k _ => ?_
    rw [concatenate_pair_apply_left 0 _ X2 hcatX (ix2 n k) rfl (ix2 ⟨n.val, hn⟩ k)
      (fun ax => by match ax with | ⟨0, _⟩ => rfl | ⟨1, _⟩ => rfl), hostEncode_apply h5, hWsel]
  · have hp : n.val - T < P := by have := n.isLt; omega
    rw [concatenate_pair_apply_right 0 G _ hcatF (ix2 n ⟨c0 + q.val, hc q⟩) rfl rfl (ix2 ⟨n.val - T, hp⟩ ⟨c0 + q.val, hc q⟩)
      (fun ax hne => by
        match ax with
        | ⟨0, _⟩ => exact absurd rfl hne
        | ⟨1, _⟩ => rfl)
      (by show n.val - T + T = n.val; omega)]
    refine Eq.trans ?_ (hostDot_apply h3 prec .single X2 Wcat ⟨n.val - T, hp⟩ ⟨c0 + q.val, hc q⟩).symm
    refine Finset.sum_congr rfl fun k _ => ?_
    rw [concatenate_pair_apply_right 0 _ X2 hcatX (ix2 n k) rfl rfl (ix2 ⟨n.val - T, hp⟩ k)
      (fun ax hne => by
        match ax with
        | ⟨0, _⟩ => exact absurd rfl hne
        | ⟨1, _⟩ => rfl)
      (by show n.val - T + T = n.val; omega), hWsel]

end Cert.Bridge

end
-- ==== Proof.ValueEq.lean ====
/-
  The kernel's three results are the reference's.

  The two programs compute the edge lists and the edge weights by the same text (the stages `val_main_v7`,
  `val_main_v8`, `val_main_v28` of the reference).  They differ in the aggregation: the reference runs one step per
  head (means, log-deviations), each on 10 columns, over the hidden rows [relu(x·W1 + b) ; y] times that head's
  weight; the kernel runs ONE step on 20 columns over the rows [relu(x·W1 + b)·W ; y·W] with W the two weights side
  by side and both biases side by side, and cuts the result in two.  A step acts on each column by itself
  (`Bridge.step_col`), and column c0 + q of the kernel's stacked rows is column q of the reference's rows for the
  head that owns the column (`Bridge.hidden_col`), so each half of the kernel's array is the reference's head.
  From equal means and log-deviations the two programs form z and the answer rows by the same text.
-/
import proofs.«172445_j86895778333433_2_alg».proof.Proof.KernelProj
import proofs.«172445_j86895778333433_2_alg».proof.Proof.KernelTail
import proofs.«172445_j86895778333433_2_alg».proof.Proof.LibStepColumns

set_option maxRecDepth 16384

noncomputable section

namespace Cert.ValueEq

open Idealize.ShloMosaic Idealize.ShloMosaic.ValueIdx
open Cert.KernelIdeal Cert.KernelIdeal.Gen Cert.KernelIdeal.Val Cert.KernelIdeal.Tail
open Cert.RowOps Cert.Dense Cert.Bridge Cert.RowTake
open Cert.ReferenceIdeal.Read

variable (x0 : FVec Ideal S100000x512 .f32) (x1 : IVec S1000000x3 32) (x2 : FVec Ideal S500x128 .f32)
  (x3 : FVec Ideal S512x128 .f32) (x4 : FVec Ideal S128 .f32) (x5 : FVec Ideal S128x10 .f32) (x6 : FVec Ideal S10 .f32)
  (x7 : FVec Ideal S128x10 .f32) (x8 : FVec Ideal S10 .f32) (x9 : FVec Ideal S100500x10 .f32)

/-- The three plain products outside the region. -/
theorem plain3 : IsPlain dot_S500x128_S128x20_S500x20_1_0_0_1_n_n := ⟨rfl, rfl, rfl, rfl, rfl, rfl⟩
theorem plain4 : IsPlain Cert.ReferenceIdeal.dot_S100500x128_S128x10_S100500x10_1_0_0_1_n_n := ⟨rfl, rfl, rfl, rfl, rfl, rfl⟩
theorem plain5 : IsPlain Cert.ReferenceIdeal.dot_S100000x512_S512x128_S100000x128_1_0_0_1_n_n := ⟨rfl, rfl, rfl, rfl, rfl, rfl⟩

/-- Column q of the first weight is column q of the pair, -/
theorem wcat_left (k : Fin 128) (q : Fin 10) (h : 0 + q.val < 20) :
    x5 (ix2 k q) = wcat x5 x7 (ix2 k ⟨0 + q.val, h⟩) := by
  unfold wcat
  exact (concatenate_pair_apply_left 1 x5 x7 _ (ix2 k ⟨0 + q.val, h⟩) rfl (ix2 k q) (fun ax => by
    match ax with
    | ⟨0, _⟩ => rfl
    | ⟨1, _⟩ => show q.val = 0 + q.val; omega)).symm

/-- and column q of the second is column 10 + q. -/
theorem wcat_right (k : Fin 128) (q : Fin 10) (h : 10 + q.val < 20) :
    x7 (ix2 k q) = wcat x5 x7 (ix2 k ⟨10 + q.val, h⟩) := by
  unfold wcat
  exact (concatenate_pair_apply_right 1 x5 x7 _ (ix2 k ⟨10 + q.val, h⟩) rfl rfl (ix2 k q) (fun ax hne => by
    match ax with
    | ⟨0, _⟩ => rfl
    | ⟨1, _⟩ => exact absurd rfl hne) (by show q.val + 10 = 10 + q.val; omega)).symm

/-- The means' hidden rows are columns 0..9 of the kernel's stacked rows. -/
theorem hidden_mean (n : Fin 100500) (q : Fin 10) (h : 0 + q.val < 20) :
    val_main_v35 (F := Ideal) x0 x2 x3 x4 x5 (ix2 n q)
      = stack (proj x0 x3 x4 (wcat x5 x7)) x2 (wcat x5 x7) (ix2 n ⟨0 + q.val, h⟩) := by
  unfold val_main_v35 val_main_v34 val_main_v33 val_main_v32 val_main_v31 val_main_v30 val_main_v29 val_main_call0_v0
    val_main_call0_cst stack
  exact hidden_col (T := 100000) (P := 500) (N := 100500) (Kin := 512) (Hd := 128) (C := 20) (C' := 10) rfl 0
    (fun q => by have := q.isLt; omega) plain3 plain4 plain5 (some .fp32) x0 x3 x4 x2 (wcat x5 x7) x5
    (proj x0 x3 x4 (wcat x5 x7)) (fun r c => proj_apply x0 x3 x4 (wcat x5 x7) r c)
    (fun k q => wcat_left x5 x7 k q _) _ _ _ _ _ n q

/-- The log-deviations' hidden rows are columns 10..19. -/
theorem hidden_logstd (n : Fin 100500) (q : Fin 10) (h : 10 + q.val < 20) :
    val_main_v52 (F := Ideal) x0 x2 x3 x4 x7 (ix2 n q)
      = stack (proj x0 x3 x4 (wcat x5 x7)) x2 (wcat x5 x7) (ix2 n ⟨10 + q.val, h⟩) := by
  unfold val_main_v52 val_main_v34 val_main_v33 val_main_v32 val_main_v31 val_main_v30 val_main_v29 val_main_call0_v0
    val_main_call0_cst stack
  exact hidden_col (T := 100000) (P := 500) (N := 100500) (Kin := 512) (Hd := 128) (C := 20) (C' := 10) rfl 10
    (fun q => by have := q.isLt; omega) plain3 plain4 plain5 (some .fp32) x0 x3 x4 x2 (wcat x5 x7) x7
    (proj x0 x3 x4 (wcat x5 x7)) (fun r c => proj_apply x0 x3 x4 (wcat x5 x7) r c)
    (fun k q => wcat_right x5 x7 k q _) _ _ _ _ _ n q

/-- THE MEANS: columns 0..9 of the kernel's aggregation are the reference's first head. -/
theorem mean_eq :
    mean (agg (proj x0 x3 x4 (wcat x5 x7)) x2 (wcat x5 x7) (val_main_v8 (F := Ideal) x1) (val_main_v28 (F := Ideal) x1)
        (val_main_v7 (F := Ideal) x1) x6 x8)
      = val_main_v51 (F := Ideal) x0 x1 x2 x3 x4 x5 x6 := by
  funext i
  obtain ⟨n, q, rfl⟩ : ∃ (n : Fin 100500) (q : Fin 10), i = ix2 n q := ⟨i 0, i 1, eq_ix2 i⟩
  unfold mean
  rw [slice2_axis1_eq]
  unfold agg wrapE val_main_v51 val_main_v48 val_main_v50 val_main_v49 val_main_v45 val_main_v42 val_main_v44 val_main_v43
    val_main_v46 val_main_cst_7 val_main_v47 val_main_v41 val_main_v40 val_main_v39 val_main_v38 val_main_c_6
    val_main_v37 val_main_v36 val_main_c_5
  refine (step_col (N := 100500) (E := 2100500) (C := 20) (C' := 10) (w := 32) 0 (fun q => by have := q.isLt; omega)
    (by decide) _ _ _ _ _ _ _ _ _ _ _ _ _ _ ?_ ?_ ?_ ?_ n q)
  · intro n q; rw [broadcastInDim_scalar_apply, broadcastInDim_scalar_apply]
  · intro n q; exact hidden_mean x0 x2 x3 x4 x5 x7 n q _
  · intro e q; rw [colSpread_apply, colSpread_apply]
  · intro n q
    rw [hostRowBias_apply, hostRowBias_apply]
    exact (concatenate_pair_apply_left (t := S20) 0 x6 x8 concatenates_S10_S10_S20_d0
      (ix1 (⟨0 + q.val, by have := q.isLt; omega⟩ : Fin 20)) rfl (ix1 q) (fun ax => by
      match ax with
      | ⟨0, _⟩ => show q.val = 0 + q.val; omega)).symm

/-- THE LOG-DEVIATIONS: columns 10..19 of the kernel's aggregation are the reference's second head. -/
theorem logstd_eq :
    logstd (agg (proj x0 x3 x4 (wcat x5 x7)) x2 (wcat x5 x7) (val_main_v8 (F := Ideal) x1) (val_main_v28 (F := Ideal) x1)
        (val_main_v7 (F := Ideal) x1) x6 x8)
      = val_main_v68 (F := Ideal) x0 x1 x2 x3 x4 x7 x8 := by
  funext i
  obtain ⟨n, q, rfl⟩ : ∃ (n : Fin 100500) (q : Fin 10), i = ix2 n q := ⟨i 0, i 1, eq_ix2 i⟩
  unfold logstd
  rw [slice2_axis1_eq]
  unfold agg wrapE val_main_v68 val_main_v65 val_main_v67 val_main_v66 val_main_v62 val_main_v59 val_main_v61 val_main_v60
    val_main_v63 val_main_cst_10 val_main_v64 val_main_v58 val_main_v57 val_main_v56 val_main_v55 val_main_c_9
    val_main_v54 val_main_v53 val_main_c_8
  refine (step_col (N := 100500) (E := 2100500) (C := 20) (C' := 10) (w := 32) 10 (fun q => by have := q.isLt; omega)
    (by decide) _ _ _ _ _ _ _ _ _ _ _ _ _ _ ?_ ?_ ?_ ?_ n q)
  · intro n q; rw [broadcastInDim_scalar_apply, broadcastInDim_scalar_apply]
  · intro n q; exact hidden_logstd x0 x2 x3 x4 x5 x7 n q _
  · intro e q; rw [colSpread_apply, colSpread_apply]
  · intro n q
    rw [hostRowBias_apply, hostRowBias_apply]
    exact (concatenate_pair_apply_right (t := S20) 0 x6 x8 concatenates_S10_S10_S20_d0
      (ix1 (⟨10 + q.val, by have := q.isLt; omega⟩ : Fin 20)) rfl rfl (ix1 q) (fun ax hne => by
      match ax with
      | ⟨0, _⟩ => exact absurd rfl hne) (by show q.val + 10 = 10 + q.val; omega)).symm

/-- z is formed from the means, the log-deviations and the noise by the same text in both programs. -/
theorem z_eq :
    zval (val_main_v51 (F := Ideal) x0 x1 x2 x3 x4 x5 x6) (val_main_v68 (F := Ideal) x0 x1 x2 x3 x4 x7 x8) x9
      = val_main_v73 (F := Ideal) x0 x1 x2 x3 x4 x5 x6 x7 x8 x9 := rfl

/-- And so are the answer rows from z and the two index columns. -/
theorem crowd_eq :
    crowd (F := Ideal) (val_main_v73 (F := Ideal) x0 x1 x2 x3 x4 x5 x6 x7 x8 x9) (val_main_v1 (F := Ideal) x1)
        (val_main_v5 (F := Ideal) x1)
      = (val_main_v88 (F := Ideal) x0 x1 x2 x3 x4 x5 x6 x7 x8 x9 : FVec Ideal S1000000x10 .f32) := rfl

end Cert.ValueEq

end
-- ==== Proof.lean ====
/-
  The certificate's five claims.

  Both printed kernels are the same text read at two instances: 37 host lines, one region over a grid of 25 row
  blocks, 49 host lines.  Their frames are the frame of that shape (modules KernelFrame and KernelIdealFrame): the
  region only reads the three arguments it stages and no host line writes an argument.  The reference has no
  region: its frame is its run with the results dropped.  The ideal pass rewrote nothing, so the idealized kernel
  is the kernel's own text.

  For the values: the region leaves in its result array the fused projection relu(x·W1 + b)·[Wm | Wl] of every task
  row (KernelValue), the later host lines turn the arrays they read into the three results stage by stage
  (KernelTail), and those stages are the reference's (ValueEq): the kernel aggregates 20 columns at once where the
  reference aggregates the two heads of 10 columns one after the other, and an aggregation step acts on every
  column by itself; nothing in the comparison needs the inputs to be finite.
-/
import proofs.«172445_j86895778333433_2_alg».proof.Defs
import proofs.«172445_j86895778333433_2_alg».proof.Proof.Gen.Kernel
import proofs.«172445_j86895778333433_2_alg».proof.Proof.Gen.KernelIdeal
import proofs.«172445_j86895778333433_2_alg».proof.Proof.Gen.ReferenceIdeal
import proofs.«172445_j86895778333433_2_alg».proof.Proof.Gen.ReferenceIdeal.Read
import proofs.«172445_j86895778333433_2_alg».proof.Proof.Gen.Pre_finite_inputs
import proofs.«172445_j86895778333433_2_alg».proof.Proof.KernelFrame
import proofs.«172445_j86895778333433_2_alg».proof.Proof.KernelValue
import proofs.«172445_j86895778333433_2_alg».proof.Proof.ValueEq
import Idealize.ShloMosaic.Adequacy
import Idealize.ShloMosaic.Init

set_option maxRecDepth 16384

noncomputable section

namespace Cert.Proof

open Idealize.ShloMosaic Idealize.ShloMosaic.TcCoe Idealize.SL.Sem

/-! ## The idealized kernel's run, with its three results named -/

section KernelRun

open Cert.KernelIdeal Cert.KernelIdeal.Gen Cert.KernelIdeal.Hand Cert.KernelIdeal.Val Cert.KernelIdeal.Tail
open Cert.ReferenceIdeal.Read (val_main_v1 val_main_v5 val_main_v7 val_main_v8 val_main_v28 val_main_v51 val_main_v68
  val_main_v73 val_main_v88)
open Idealize.ShloMosaic.Pipeline (Dat)

variable (m : (ℓ : Loc nD τ sig) → Buf (Elt Ideal) ℓ) (ρ : Dev nD → PrngReg)

/-- The contents the later lines start from: the region's arrays as it leaves them, every other buffer as it was
    at the region's entry. -/
abbrev exitV (c : Dev nD) : Valuation τ sig (Elt Ideal) :=
  Pipeline.withArrays (cfgs 0).spec c (V0 m c) fun w => (dats m 0 c).arrAt w (cfgs 0).N

theorem afterTail_eq (c : Dev nD) (b : Ref sig .tc) :
    Pipeline.afterTail₀ cfgs (dats m) 0 (V0 m) [hostOps1] c b
      = StableHlo.after hostOps1 (exitV m c) (Proc.devRef .tc b) := by
  unfold Pipeline.afterTail₀
  rw [flat1]

theorem V_eq (c : Dev nD) (b : Ref sig .tc) :
    V m c b = StableHlo.after hostOps0 (fun b => m (c, b)) (Proc.devRef .tc b) := by
  show StableHlo.after (List.flatten [hostOps0]) (fun b => m (c, b)) (Proc.devRef .tc b) = _
  rw [flat0]

/-- A buffer that is no array of the region leaves it as it entered. -/
theorem exit_ne (c : Dev nD) (b : Ref sig .tc) (h : ∀ w, Pipeline.arrRef spec0 w ≠ b) :
    exitV m c (Proc.devRef .tc b) = V m c b :=
  Pipeline.withArrays_of_ne _ c (V0 m c) _ b h

/-- The stacked output weights at the region's entry. -/
theorem V_v29 (c : Dev nD) :
    (V m c main_v29 : FVec Ideal S128x20 .f32) = wcat (F := Ideal) (m ((c.tc : Thread nD τ).loc main_arg5)) (m ((c.tc : Thread nD τ).loc main_arg7)) :=
  (V_eq m c main_v29).trans (pre_v29 _)

/-- The region's result array as the later lines find it. -/
theorem exit_v30 (c : Dev nD) :
    (exitV m c (Proc.devRef .tc main_v30) : FVec Ideal S100000x20 .f32)
      = proj (m ((c.tc : Thread nD τ).loc main_arg0)) (m ((c.tc : Thread nD τ).loc main_arg3)) (m ((c.tc : Thread nD τ).loc main_arg4)) (wcat (F := Ideal) (m ((c.tc : Thread nD τ).loc main_arg5)) (m ((c.tc : Thread nD τ).loc main_arg7))) := by
  refine (Pipeline.withArrays_arr (cfgs 0).spec launch0.win.arr_inj c (V0 m c) _ (4 : Fin 5)).trans ?_
  refine (final4 m c).trans ?_
  rw [V_main_arg0, V_main_arg3, V_main_arg4, V_v29]

/-- The stacked output weights: an input of the region, returned as found. -/
theorem exit_v29 (c : Dev nD) :
    (exitV m c (Proc.devRef .tc main_v29) : FVec Ideal S128x20 .f32) = wcat (F := Ideal) (m ((c.tc : Thread nD τ).loc main_arg5)) (m ((c.tc : Thread nD τ).loc main_arg7)) :=
  (Pipeline.withArrays_arr (cfgs 0).spec launch0.win.arr_inj c (V0 m c) _ (3 : Fin 5)).trans
    (((dats m 0 c).arrAt_in 3 rfl _).trans ((A_eq m c 3).trans (V_v29 m c)))

theorem exit_a2 (c : Dev nD) : exitV m c (Proc.devRef .tc main_arg2) = (m ((c.tc : Thread nD τ).loc main_arg2)) :=
  (exit_ne m c main_arg2 (by decide)).trans (V_main_arg2 m c)
theorem exit_a6 (c : Dev nD) : exitV m c (Proc.devRef .tc main_arg6) = (m ((c.tc : Thread nD τ).loc main_arg6)) :=
  (exit_ne m c main_arg6 (by decide)).trans (V_main_arg6 m c)
theorem exit_a8 (c : Dev nD) : exitV m c (Proc.devRef .tc main_arg8) = (m ((c.tc : Thread nD τ).loc main_arg8)) :=
  (exit_ne m c main_arg8 (by decide)).trans (V_main_arg8 m c)
theorem exit_a9 (c : Dev nD) : exitV m c (Proc.devRef .tc main_arg9) = (m ((c.tc : Thread nD τ).loc main_arg9)) :=
  (exit_ne m c main_arg9 (by decide)).trans (V_main_arg9 m c)

theorem exit_v1 (c : Dev nD) :
    (exitV m c (Proc.devRef .tc main_v1) : IVec S1000000 32) = val_main_v1 (F := Ideal) (m ((c.tc : Thread nD τ).loc main_arg1)) :=
  (exit_ne m c main_v1 (by decide)).trans ((V_eq m c main_v1).trans (pre_v1 _))
theorem exit_v5 (c : Dev nD) :
    (exitV m c (Proc.devRef .tc main_v5) : IVec S1000000 32) = val_main_v5 (F := Ideal) (m ((c.tc : Thread nD τ).loc main_arg1)) :=
  (exit_ne m c main_v5 (by decide)).trans ((V_eq m c main_v5).trans (pre_v5 _))
theorem exit_v7 (c : Dev nD) :
    (exitV m c (Proc.devRef .tc main_v7) : IVec S2100500 32) = val_main_v7 (F := Ideal) (m ((c.tc : Thread nD τ).loc main_arg1)) :=
  (exit_ne m c main_v7 (by decide)).trans ((V_eq m c main_v7).trans (pre_v7 _))
theorem exit_v8 (c : Dev nD) :
    (exitV m c (Proc.devRef .tc main_v8) : IVec S2100500 32) = val_main_v8 (F := Ideal) (m ((c.tc : Thread nD τ).loc main_arg1)) :=
  (exit_ne m c main_v8 (by decide)).trans ((V_eq m c main_v8).trans (pre_v8 _))
theorem exit_v28 (c : Dev nD) :
    (exitV m c (Proc.devRef .tc main_v28) : FVec Ideal S2100500 .f32) = val_main_v28 (F := Ideal) (m ((c.tc : Thread nD τ).loc main_arg1)) :=
  (exit_ne m c main_v28 (by decide)).trans ((V_eq m c main_v28).trans (pre_v28 _))

/-- The aggregation the later lines compute, over the arguments. -/
theorem agg_exit (c : Dev nD) :
    aggOf (exitV m c) = agg (proj (m ((c.tc : Thread nD τ).loc main_arg0)) (m ((c.tc : Thread nD τ).loc main_arg3)) (m ((c.tc : Thread nD τ).loc main_arg4)) (wcat (F := Ideal) (m ((c.tc : Thread nD τ).loc main_arg5)) (m ((c.tc : Thread nD τ).loc main_arg7)))) (m ((c.tc : Thread nD τ).loc main_arg2)) (wcat (F := Ideal) (m ((c.tc : Thread nD τ).loc main_arg5)) (m ((c.tc : Thread nD τ).loc main_arg7)))
      (val_main_v8 (F := Ideal) (m ((c.tc : Thread nD τ).loc main_arg1))) (val_main_v28 (F := Ideal) (m ((c.tc : Thread nD τ).loc main_arg1))) (val_main_v7 (F := Ideal) (m ((c.tc : Thread nD τ).loc main_arg1)))
      (m ((c.tc : Thread nD τ).loc main_arg6)) (m ((c.tc : Thread nD τ).loc main_arg8)) := by
  show agg _ _ _ _ _ _ _ _ = _
  rw [exit_v30, exit_a2, exit_v29, exit_v8, exit_v28, exit_v7, exit_a6, exit_a8]

/-- The means buffer after the later lines is the reference's first head, -/
theorem res_mean (c : Dev nD) :
    (Pipeline.afterTail₀ cfgs (dats m) 0 (V0 m) [hostOps1] c main_v50 : FVec Ideal S100500x10 .f32)
      = val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (afterTail_eq m c main_v50).trans ((tail_v50 _).trans ?_)
  rw [agg_exit]
  exact Cert.ValueEq.mean_eq _ _ _ _ _ _ _ _ _

/-- the log-deviations buffer the second, -/
theorem res_logstd (c : Dev nD) :
    (Pipeline.afterTail₀ cfgs (dats m) 0 (V0 m) [hostOps1] c main_v51 : FVec Ideal S100500x10 .f32)
      = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  refine (afterTail_eq m c main_v51).trans ((tail_v51 _).trans ?_)
  rw [agg_exit]
  exact Cert.ValueEq.logstd_eq _ _ _ _ _ _ _ _ _

/-- and the answers buffer the reference's answer rows. -/
theorem res_crowd (c : Dev nD) :
    (Pipeline.afterTail₀ cfgs (dats m) 0 (V0 m) [hostOps1] c main_v71 : FVec Ideal S1000000x10 .f32)
      = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (afterTail_eq m c main_v71).trans ((tail_v71 _).trans ?_)
  rw [agg_exit, exit_a9, exit_v1, exit_v5, Cert.ValueEq.mean_eq, Cert.ValueEq.logstd_eq, Cert.ValueEq.z_eq]
  exact Cert.ValueEq.crowd_eq _ _ _ _ _ _ _ _ _ _

/-- Every weakly fair execution of the idealized kernel ends with the three results at the reference's stages of
    the launch contents of the arguments, and the arguments unchanged. -/
theorem runK : θ_run defs (onTc (τ := τ) (main (F := Ideal))) ⟨m, fun _ => 0, ρ⟩ (fun r => ∀ c : Dev nD,
      r.2.mem ((c.tc : Thread nD τ).loc main_v71) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v50) = val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v51) = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v71 (Pipeline.mem_restRefs_of main_v71 (by decide) (by decide))).trans (res_crowd m c),
      ((h c).2 main_v50 (Pipeline.mem_restRefs_of main_v50 (by decide) (by decide))).trans (res_mean m c),
      ((h c).2 main_v51 (Pipeline.mem_restRefs_of main_v51 (by decide) (by decide))).trans (res_logstd m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end KernelRun

/-! ## The claims -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on the arguments both idealized programs end with the same three results: the
    reference's stages of the arguments. -/
theorem algebraic : Cert.algebraic_KernelIdeal_ReferenceIdeal := by
  intro m ρ m' ρ' _ hagree
  refine ⟨_, _, _, runK m ρ, ?_⟩
  refine (θ_run Cert.ReferenceIdeal.defs _ _).mono (fun _ h c => ⟨(h c).1.trans ?_, (h c).2.1.trans ?_, (h c).2.2.1.trans ?_,
    (h c).2.2.2⟩) (Cert.ReferenceIdeal.Value.run (F := Ideal) m' ρ')
  · rw [Cert.ReferenceIdeal.Read.val_main_v88_eq]
    obtain ⟨h0, h1, h2, h3, h4, h5, h6, h7, h8, h9⟩ := hagree c
    rw [h0, h1, h2, h3, h4, h5, h6, h7, h8, h9]
  · rw [Cert.ReferenceIdeal.Read.val_main_v51_eq]
    obtain ⟨h0, h1, h2, h3, h4, h5, h6, h7, h8, h9⟩ := hagree c
    rw [h0, h1, h2, h3, h4, h5, h6]
  · rw [Cert.ReferenceIdeal.Read.val_main_v68_eq]
    obtain ⟨h0, h1, h2, h3, h4, h5, h6, h7, h8, h9⟩ := hagree c
    rw [h0, h1, h2, h3, h4, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
